-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x26x8 : Shape := ⟨3, ![4096, 26, 8]⟩
abbrev S1000000x64 : Shape := ⟨2, ![1000000, 64]⟩
abbrev S1664x1024 : Shape := ⟨2, ![1664, 1024]⟩
abbrev S1024 : Shape := ⟨1, ![1024]⟩
abbrev S1024x1664 : Shape := ⟨2, ![1024, 1664]⟩
abbrev S1664 : Shape := ⟨1, ![1664]⟩
abbrev S1664x512 : Shape := ⟨2, ![1664, 512]⟩
abbrev S512 : Shape := ⟨1, ![512]⟩
abbrev S512x1664 : Shape := ⟨2, ![512, 1664]⟩
abbrev S1664x1 : Shape := ⟨2, ![1664, 1]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1664x1024 : S_.BroadcastsInDim S1664x1024 (![] : Fin 0 → Fin S1664x1024.rank)
  reducesTo_S1664x1024_S_d0_1 : S1664x1024.ReducesTo [0, 1] S_
  bcast_S_S1024 : S_.BroadcastsInDim S1024 (![] : Fin 0 → Fin S1024.rank)
  reducesTo_S1024_S_d0 : S1024.ReducesTo [0] S_
  bcast_S_S1024x1664 : S_.BroadcastsInDim S1024x1664 (![] : Fin 0 → Fin S1024x1664.rank)
  reducesTo_S1024x1664_S_d0_1 : S1024x1664.ReducesTo [0, 1] S_
  bcast_S_S1664 : S_.BroadcastsInDim S1664 (![] : Fin 0 → Fin S1664.rank)
  reducesTo_S1664_S_d0 : S1664.ReducesTo [0] S_
  bcast_S_S1664x512 : S_.BroadcastsInDim S1664x512 (![] : Fin 0 → Fin S1664x512.rank)
  reducesTo_S1664x512_S_d0_1 : S1664x512.ReducesTo [0, 1] S_
  bcast_S_S512 : S_.BroadcastsInDim S512 (![] : Fin 0 → Fin S512.rank)
  reducesTo_S512_S_d0 : S512.ReducesTo [0] S_
  bcast_S_S512x1664 : S_.BroadcastsInDim S512x1664 (![] : Fin 0 → Fin S512x1664.rank)
  reducesTo_S512x1664_S_d0_1 : S512x1664.ReducesTo [0, 1] S_
  bcast_S_S1664x1 : S_.BroadcastsInDim S1664x1 (![] : Fin 0 → Fin S1664x1.rank)
  reducesTo_S1664x1_S_d0_1 : S1664x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S512x1664 .f32) (main_arg13 : FVec F S1664 .f32) (main_arg14 : FVec F S1664x1 .f32) (main_arg15 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x1664 .f32 := Host.absf main_arg12
  let main_cst_20 : FVec F S_ .f32 := constant S_ .f32 0x7F800000#32
  let main_v55 : FVec F S512x1664 .f32 := broadcastInDim S512x1664 ![] bcast_S_S512x1664 main_cst_20
  let main_v56 : IVec S512x1664 1 := cmpf .olt main_v54 main_v55
  let main_c_21 : IVec S_ 1 := constantI S_ 1 1#1
  let main_v57 : IVec S_ 1 := (fun x v => Host.reduce IntOp.andi x v reducesTo_S512x1664_S_d0_1 h_S_) main_v56 main_c_21
  let main_v58 : IVec S_ 1 := andi main_v53 main_v57
  let main_v59 : FVec F S1664 .f32 := Host.absf main_arg13
  let main_cst_22 : FVec F S_ .f32 := constant S_ .f32 0x7F800000#32
  let main_v60 : FVec F S1664 .f32 := broadcastInDim S1664 ![] bcast_S_S1664 main_cst_22
  let main_v61 : IVec S1664 1 := cmpf .olt main_v59 main_v60
  let main_c_23 : IVec S_ 1 := constantI S_ 1 1#1
  let main_v62 : IVec S_ 1 := (fun x v => Host.reduce IntOp.andi x v reducesTo_S1664_S_d0 h_S_) main_v61 main_c_23
  let main_v63 : IVec S_ 1 := andi main_v58 main_v62
  let main_v64 : FVec F S1664x1 .f32 := Host.absf main_arg14
  let main_cst_24 : FVec F S_ .f32 := constant S_ .f32 0x7F800000#32
  let main_v65 : FVec F S1664x1 .f32 := broadcastInDim S1664x1 ![] bcast_S_S1664x1 main_cst_24
  let main_v66 : IVec S1664x1 1 := cmpf .olt main_v64 main_v65
  let main_c_25 : IVec S_ 1 := constantI S_ 1 1#1
  let main_v67 : IVec S_ 1 := (fun x v => Host.reduce IntOp.andi x v reducesTo_S1664x1_S_d0_1 h_S_) main_v66 main_c_25
  fn_part4 (F := F) main_arg15 main_v63 main_v67

def fn_part2 {F : FTy → Type} [FloatOps F] (main_arg8 : FVec F S1024x1664 .f32) (main_arg9 : FVec F S1664 .f32) (main_arg10 : FVec F S1664x512 .f32) (main_arg11 : FVec F S512 .f32) (main_arg12 : FVec F S512x1664 .f32) (main_arg13 : FVec F S1664 .f32) (main_arg14 : FVec F S1664x1 .f32) (main_arg15 : FVec F S1 .f32) (main_v33 : IVec S_ 1) : IVec S_ 1 :=
  let main_v34 : FVec F S1024x1664 .f32 := Host.absf main_arg8
  let main_cst_12 : FVec F S_ .f32 := constant S_ .f32 0x7F800000#32
  let main_v35 : FVec F S1024x1664 .f32 := broadcastInDim S1024x1664 ![] bcast_S_S1024x1664 main_cst_12
  let main_v36 : IVec S1024x1664 1 := cmpf .olt main_v34 main_v35
  let main_c_13 : IVec S_ 1 := constantI S_ 1 1#1
  let main_v37 : IVec S_ 1 := (fun x v => Host.reduce IntOp.andi x v reducesTo_S1024x1664_S_d0_1 h_S_) main_v36 main_c_13
  let main_v38 : IVec S_ 1 := andi main_v33 main_v37
  let main_v39 : FVec F S1664 .f32 := Host.absf main_arg9
  let main_cst_14 : FVec F S_ .f32 := constant S_ .f32 0x7F800000#32
  let main_v40 : FVec F S1664 .f32 := broadcastInDim S1664 ![] bcast_S_S1664 main_cst_14
  let main_v41 : IVec S1664 1 := cmpf .olt main_v39 main_v40
  let main_c_15 : IVec S_ 1 := constantI S_ 1 1#1
  let main_v42 : IVec S_ 1 := (fun x v => Host.reduce IntOp.andi x v reducesTo_S1664_S_d0 h_S_) main_v41 main_c_15
  let main_v43 : IVec S_ 1 := andi main_v38 main_v42
  let main_v44 : FVec F S1664x512 .f32 := Host.absf main_arg10
  let main_cst_16 : FVec F S_ .f32 := constant S_ .f32 0x7F800000#32
  let main_v45 : FVec F S1664x512 .f32 := broadcastInDim S1664x512 ![] bcast_S_S1664x512 main_cst_16
  let main_v46 : IVec S1664x512 1 := cmpf .olt main_v44 main_v45
  let main_c_17 : IVec S_ 1 := constantI S_ 1 1#1
  let main_v47 : IVec S_ 1 := (fun x v => Host.reduce IntOp.andi x v reducesTo_S1664x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_v48 main_v49 main_v50

def fn_part1 {F : FTy → Type} [FloatOps F] (main_arg5 : FVec F S1664 .f32) (main_arg6 : FVec F S1664x1024 .f32) (main_arg7 : FVec F S1024 .f32) (main_arg8 : FVec F S1024x1664 .f32) (main_arg9 : FVec F S1664 .f32) (main_arg10 : FVec F S1664x512 .f32) (main_arg11 : FVec F S512 .f32) (main_arg12 : FVec F S512x1664 .f32) (main_arg13 : FVec F S1664 .f32) (main_arg14 : FVec F S1664x1 .f32) (main_arg15 : FVec F S1 .f32) (main_v13 : IVec S_ 1) (main_v16 : IVec S1024x1664 1) : IVec S_ 1 :=
  let main_c_5 : IVec S_ 1 := constantI S_ 1 1#1
  let main_v17 : IVec S_ 1 := (fun x v => Host.reduce IntOp.andi x v reducesTo_S1024x1664_S_d0_1 h_S_) main_v16 main_c_5
  let main_v18 : IVec S_ 1 := andi main_v13 main_v17
  let main_v19 : FVec F S1664 .f32 := Host.absf main_arg5
  let main_cst_6 : FVec F S_ .f32 := constant S_ .f32 0x7F800000#32
  let main_v20 : FVec F S1664 .f32 := broadcastInDim S1664 ![] bcast_S_S1664 main_cst_6
  let main_v21 : IVec S1664 1 := cmpf .olt main_v19 main_v20
  let main_c_7 : IVec S_ 1 := constantI S_ 1 1#1
  let main_v22 : IVec S_ 1 := (fun x v => Host.reduce IntOp.andi x v reducesTo_S1664_S_d0 h_S_) main_v21 main_c_7
  let main_v23 : IVec S_ 1 := andi main_v18 main_v22
  let main_v24 : FVec F S1664x1024 .f32 := Host.absf main_arg6
  let main_cst_8 : FVec F S_ .f32 := constant S_ .f32 0x7F800000#32
  let main_v25 : FVec F S1664x1024 .f32 := broadcastInDim S1664x1024 ![] bcast_S_S1664x1024 main_cst_8
  let main_v26 : IVec S1664x1024 1 := cmpf .olt main_v24 main_v25
  let main_c_9 : IVec S_ 1 := constantI S_ 1 1#1
  let main_v27 : IVec S_ 1 := (fun x v => Host.reduce IntOp.andi x v reducesTo_S1664x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : IVec S4096x26x8 32) (main_arg1 : FVec F S1000000x64 .f32) (main_arg2 : FVec F S1664x1024 .f32) (main_arg3 : FVec F S1024 .f32) (main_arg4 : FVec F S1024x1664 .f32) (main_arg5 : FVec F S1664 .f32) (main_arg6 : FVec F S1664x1024 .f32) (main_arg7 : FVec F S1024 .f32) (main_arg8 : FVec F S1024x1664 .f32) (main_arg9 : FVec F S1664 .f32) (main_arg10 : FVec F S1664x512 .f32) (main_arg11 : FVec F S512 .f32) (main_arg12 : FVec F S512x1664 .f32) (main_arg13 : FVec F S1664 .f32) (main_arg14 : FVec F S1664x1 .f32) (main_arg15 : FVec F S1 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1664x1024 .f32 := Host.absf main_arg2
  let main_cst_0 : FVec F S_ .f32 := constant S_ .f32 0x7F800000#32
  let main_v5 : FVec F S1664x1024 .f32 := broadcastInDim S1664x1024 ![] bcast_S_S1664x1024 main_cst_0
  let main_v6 : IVec S1664x1024 1 := cmpf .olt main_v4 main_v5
  let main_c_1 : IVec S_ 1 := constantI S_ 1 1#1
  let main_v7 : IVec S_ 1 := (fun x v => Host.reduce IntOp.andi x v reducesTo_S1664x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1664 .f32 := Host.absf main_arg4
  let main_cst_4 : FVec F S_ .f32 := constant S_ .f32 0x7F800000#32
  let main_v15 : FVec F S1024x1664 .f32 := broadcastInDim S1024x1664 ![] bcast_S_S1024x1664 main_cst_4
  let main_v16 : IVec S1024x1664 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S4096x26x8 : Shape := ⟨3, ![4096, 26, 8]⟩
abbrev S1000000x64 : Shape := ⟨2, ![1000000, 64]⟩
abbrev S1664x1024 : Shape := ⟨2, ![1664, 1024]⟩
abbrev S1024 : Shape := ⟨1, ![1024]⟩
abbrev S1024x1664 : Shape := ⟨2, ![1024, 1664]⟩
abbrev S1664 : Shape := ⟨1, ![1664]⟩
abbrev S1664x512 : Shape := ⟨2, ![1664, 512]⟩
abbrev S512 : Shape := ⟨1, ![512]⟩
abbrev S512x1664 : Shape := ⟨2, ![512, 1664]⟩
abbrev S1664x1 : Shape := ⟨2, ![1664, 1]⟩
abbrev S1 : Shape := ⟨1, ![1]⟩
abbrev S_ : Shape := ⟨0, ![]⟩
abbrev S4096x26x8x1 : Shape := ⟨4, ![4096, 26, 8, 1]⟩
abbrev S4096x26x8x64 : Shape := ⟨4, ![4096, 26, 8, 64]⟩
abbrev S4096x26x64 : Shape := ⟨3, ![4096, 26, 64]⟩
abbrev S4096x1664 : Shape := ⟨2, ![4096, 1664]⟩
abbrev S1x1024 : Shape := ⟨2, ![1, 1024]⟩
abbrev S1x1664 : Shape := ⟨2, ![1, 1664]⟩
abbrev S1x512 : Shape := ⟨2, ![1, 512]⟩
abbrev S1x1 : Shape := ⟨2, ![1, 1]⟩
abbrev S4096x1 : Shape := ⟨2, ![4096, 1]⟩
abbrev S512x1 : Shape := ⟨2, ![512, 1]⟩
abbrev S512x1024 : Shape := ⟨2, ![512, 1024]⟩
abbrev S512x512 : Shape := ⟨2, ![512, 512]⟩

abbrev nBuf : Space → Nat
  | .hbm => 43
  | .vmem => 18
  | .smem => 0
  | _ => 0

abbrev bufTy : (tb : Table) → Fin (tcTables nBuf tb) → BufTy
  | .hbm, ⟨0, _⟩ => ⟨S4096x26x8, .i32⟩
  | .hbm, ⟨1, _⟩ => ⟨S1000000x64, .f32⟩
  | .hbm, ⟨2, _⟩ => ⟨S1664x1024, .f32⟩
  | .hbm, ⟨3, _⟩ => ⟨S1024, .f32⟩
  | .hbm, ⟨4, _⟩ => ⟨S1024x1664, .f32⟩
  | .hbm, ⟨5, _⟩ => ⟨S1664, .f32⟩
  | .hbm, ⟨6, _⟩ => ⟨S1664x1024, .f32⟩
  | .hbm, ⟨7, _⟩ => ⟨S1024, .f32⟩
  | .hbm, ⟨8, _⟩ => ⟨S1024x1664, .f32⟩
  | .hbm, ⟨9, _⟩ => ⟨S1664, .f32⟩
  | .hbm, ⟨10, _⟩ => ⟨S1664x512, .f32⟩
  | .hbm, ⟨11, _⟩ => ⟨S512, .f32⟩
  | .hbm, ⟨12, _⟩ => ⟨S512x1664, .f32⟩
  | .hbm, ⟨13, _⟩ => ⟨S1664, .f32⟩
  | .hbm, ⟨14, _⟩ => ⟨S1664x1, .f32⟩
  | .hbm, ⟨15, _⟩ => ⟨S1, .f32⟩
  | .hbm, ⟨16, _⟩ => ⟨S_, .i32⟩
  | .hbm, ⟨17, _⟩ => ⟨S4096x26x8, .i32⟩
  | .hbm, ⟨18, _⟩ => ⟨S4096x26x8, .i1⟩
  | .hbm, ⟨19, _⟩ => ⟨S_, .i32⟩
  | .hbm, ⟨20, _⟩ => ⟨S4096x26x8, .i32⟩
  | .hbm, ⟨21, _⟩ => ⟨S4096x26x8, .i32⟩
  | .hbm, ⟨22, _⟩ => ⟨S4096x26x8, .i32⟩
  | .hbm, ⟨23, _⟩ => ⟨S4096x26x8x1, .i32⟩
  | .hbm, ⟨24, _⟩ => ⟨S4096x26x8x64, .f32⟩
  | .hbm, ⟨25, _⟩ => ⟨S_, .f32⟩
  | .hbm, ⟨26, _⟩ => ⟨S4096x26x64, .f32⟩
  | .hbm, ⟨27, _⟩ => ⟨S4096x1664, .f32⟩
  | .hbm, ⟨28, _⟩ => ⟨S1664x1024, .bf16⟩
  | .hbm, ⟨29, _⟩ => ⟨S1024x1664, .bf16⟩
  | .hbm, ⟨30, _⟩ => ⟨S1664x1024, .bf16⟩
  | .hbm, ⟨31, _⟩ => ⟨S1024x1664, .bf16⟩
  | .hbm, ⟨32, _⟩ => ⟨S1664x512, .bf16⟩
  | .hbm, ⟨33, _⟩ => ⟨S512x1664, .bf16⟩
  | .hbm, ⟨34, _⟩ => ⟨S1664x1, .bf16⟩
  | .hbm, ⟨35, _⟩ => ⟨S1x1024, .f32⟩
  | .hbm, ⟨36, _⟩ => ⟨S1x1664, .f32⟩
  | .hbm, ⟨37, _⟩ => ⟨S1x1024, .f32⟩
  | .hbm, ⟨38, _⟩ => ⟨S1x1664, .f32⟩
  | .hbm, ⟨39, _⟩ => ⟨S1x512, .f32⟩
  | .hbm, ⟨40, _⟩ => ⟨S1x1664, .f32⟩
  | .hbm, ⟨41, _⟩ => ⟨S1x1, .f32⟩
  | .hbm, ⟨42, _⟩ => ⟨S4096x1, .f32⟩
  | .local _ .vmem, ⟨0, _⟩ => ⟨S512x1664, .f32⟩
  | .local _ .vmem, ⟨1, _⟩ => ⟨S512x1664, .f32⟩
  | .local _ .vmem, ⟨2, _⟩ => ⟨S1664x1024, .bf16⟩
  | .local _ .vmem, ⟨3, _⟩ => ⟨S1x1024, .f32⟩
  | .local _ .vmem, ⟨4, _⟩ => ⟨S1024x1664, .bf16⟩
  | .local _ .vmem, ⟨5, _⟩ => ⟨S1x1664, .f32⟩
  | .local _ .vmem, ⟨6, _⟩ => ⟨S1664x1024, .bf16⟩
  | .local _ .vmem, ⟨7, _⟩ => ⟨S1x1024, .f32⟩
  | .local _ .vmem, ⟨8, _⟩ => ⟨S1024x1664, .bf16⟩
  | .local _ .vmem, ⟨9, _⟩ => ⟨S1x1664, .f32⟩
  | .local _ .vmem, ⟨10, _⟩ => ⟨S1664x512, .bf16⟩
  | .local _ .vmem, ⟨11, _⟩ => ⟨S1x512, .f32⟩
  | .local _ .vmem, ⟨12, _⟩ => ⟨S512x1664, .bf16⟩
  | .local _ .vmem, ⟨13, _⟩ => ⟨S1x1664, .f32⟩
  | .local _ .vmem, ⟨14, _⟩ => ⟨S1664x1, .bf16⟩
  | .local _ .vmem, ⟨15, _⟩ => ⟨S1x1, .f32⟩
  | .local _ .vmem, ⟨16, _⟩ => ⟨S512x1, .f32⟩
  | .local _ .vmem, ⟨17, _⟩ => ⟨S512x1, .f32⟩
  | _, _ => ⟨S4096x26x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1664x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1664 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1664x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1664 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1664 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1664x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1664 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1664 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1664x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S_S4096x26x8 : S_.BroadcastsInDim S4096x26x8 (![] : Fin 0 → Fin S4096x26x8.rank)
  bcast_S4096x26x8_S4096x26x8x1_0_1_2 : S4096x26x8.BroadcastsInDim S4096x26x8x1 (![0, 1, 2] : Fin 3 → Fin S4096x26x8x1.rank)
  reducesTo_S4096x26x8x64_S4096x26x64_d2 : S4096x26x8x64.ReducesTo [2] S4096x26x64
  h_S_ : 0 < S_.numel
  shapeCasts_S4096x26x64_S4096x1664 : S4096x26x64.ShapeCasts S4096x1664
  bitsLt_bf16_f32 : FTy.bits .bf16 < FTy.bits .f32
  shapeCasts_S1024_S1x1024 : S1024.ShapeCasts S1x1024
  shapeCasts_S1664_S1x1664 : S1664.ShapeCasts S1x1664
  shapeCasts_S512_S1x512 : S512.ShapeCasts S1x512
  shapeCasts_S1_S1x1 : S1.ShapeCasts S1x1
  inb_S512x1664_S512x1664_0_0 : ∀ a, (![0, 0] : Fin 2 → Nat) a + S512x1664.size a ≤ S512x1664.size a
  h_S512x1664 : 0 < S512x1664.numel
  shapeCasts_S512x1664_S512x1664 : S512x1664.ShapeCasts S512x1664
  inb_S1664x1024_S1664x1024_0_0 : ∀ a, (![0, 0] : Fin 2 → Nat) a + S1664x1024.size a ≤ S1664x1024.size a
  h_S1664x1024 : 0 < S1664x1024.numel
  shapeCasts_S1664x1024_S1664x1024 : S1664x1024.ShapeCasts S1664x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1664_S1024x1664_0_0 : ∀ a, (![0, 0] : Fin 2 → Nat) a + S1024x1664.size a ≤ S1024x1664.size a
  h_S1024x1664 : 0 < S1024x1664.numel
  shapeCasts_S1024x1664_S1024x1664 : S1024x1664.ShapeCasts S1024x1664
  inb_S1x1664_S1x1664_0_0 : ∀ a, (![0, 0] : Fin 2 → Nat) a + S1x1664.size a ≤ S1x1664.size a
  h_S1x1664 : 0 < S1x1664.numel
  shapeCasts_S1x1664_S1x1664 : S1x1664.ShapeCasts S1x1664
  broadcasts_S1x1664_S512x1664 : S1x1664.Broadcasts S512x1664
  inb_S1664x512_S1664x512_0_0 : ∀ a, (![0, 0] : Fin 2 → Nat) a + S1664x512.size a ≤ S1664x512.size a
  h_S1664x512 : 0 < S1664x512.numel
  shapeCasts_S1664x512_S1664x512 : S1664x512.ShapeCasts S1664x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1664x1_S1664x1_0_0 : ∀ a, (![0, 0] : Fin 2 → Nat) a + S1664x1.size a ≤ S1664x1.size a
  h_S1664x1 : 0 < S1664x1.numel
  shapeCasts_S1664x1_S1664x1 : S1664x1.ShapeCasts S1664x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S1000000x64_S4096x26x8x1_S4096x26x8x64_3_0_n_n_0_3_164_wf : GatherDims.WF S1000000x64 S4096x26x8x1 S4096x26x8x64 [3] [0] [] [0] [] 3 ![1, 64]
  dot_S512x1664_S1664x1024_S512x1024_1_0_0_1_n_n_wf : DotDims.WF S512x1664 S1664x1024 S512x1024 [1] [0] [0] [1] [] []
  dot_S512x1024_S1024x1664_S512x1664_1_0_0_1_n_n_wf : DotDims.WF S512x1024 S1024x1664 S512x1664 [1] [0] [0] [1] [] []
  dot_S512x1664_S1664x512_S512x512_1_0_0_1_n_n_wf : DotDims.WF S512x1664 S1664x512 S512x512 [1] [0] [0] [1] [] []
  dot_S512x512_S512x1664_S512x1664_1_0_0_1_n_n_wf : DotDims.WF S512x512 S512x1664 S512x1664 [1] [0] [0] [1] [] []
  dot_S512x1664_S1664x1_S512x1_1_0_0_1_n_n_wf : DotDims.WF S512x1664 S1664x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1664.size a ≤ S4096x1664.size a
  hwx0_0 : ∀ i : grid0.Coords, EltTy.bits .f32 = 32 ∨ (Rect.block (s := S4096x1664) S512x1664.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1664x1024.size a ≤ S1664x1024.size a
  hwx0_1 : ∀ i : grid0.Coords, EltTy.bits .bf16 = 32 ∨ (Rect.block (s := S1664x1024) S1664x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1664.size a ≤ S1024x1664.size a
  hwx0_3 : ∀ i : grid0.Coords, EltTy.bits .bf16 = 32 ∨ (Rect.block (s := S1024x1664) S1024x1664.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1664.size a ≤ S1x1664.size a
  hwx0_4 : ∀ i : grid0.Coords, EltTy.bits .f32 = 32 ∨ (Rect.block (s := S1x1664) S1x1664.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1664x1024.size a ≤ S1664x1024.size a
  hwx0_5 : ∀ i : grid0.Coords, EltTy.bits .bf16 = 32 ∨ (Rect.block (s := S1664x1024) S1664x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1664.size a ≤ S1024x1664.size a
  hwx0_7 : ∀ i : grid0.Coords, EltTy.bits .bf16 = 32 ∨ (Rect.block (s := S1024x1664) S1024x1664.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1664.size a ≤ S1x1664.size a
  hwx0_8 : ∀ i : grid0.Coords, EltTy.bits .f32 = 32 ∨ (Rect.block (s := S1x1664) S1x1664.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1664x512.size a ≤ S1664x512.size a
  hwx0_9 : ∀ i : grid0.Coords, EltTy.bits .bf16 = 32 ∨ (Rect.block (s := S1664x512) S1664x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x1664.size a ≤ S512x1664.size a
  hwx0_11 : ∀ i : grid0.Coords, EltTy.bits .bf16 = 32 ∨ (Rect.block (s := S512x1664) S512x1664.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1664.size a ≤ S1x1664.size a
  hwx0_12 : ∀ i : grid0.Coords, EltTy.bits .f32 = 32 ∨ (Rect.block (s := S1x1664) S1x1664.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1664x1.size a ≤ S1664x1.size a
  hwx0_13 : ∀ i : grid0.Coords, EltTy.bits .bf16 = 32 ∨ (Rect.block (s := S1664x1) S1664x1.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x1.size a ≤ S4096x1.size a
  hwx0_15 : ∀ i : grid0.Coords, EltTy.bits .f32 = 32 ∨ (Rect.block (s := S4096x1) S512x1.size (cc0_transform_15 i) (hinb0_15 i)).WholeWords (EltTy.packing .f32)

variable [Facts₀]

def gather_S1000000x64_S4096x26x8x1_S4096x26x8x64_3_0_n_n_0_3_164 : GatherDims S1000000x64 S4096x26x8x1 S4096x26x8x64 where
  offsetDims := [3]
  collapsedSliceDims := [0]
  operandBatchingDims := []
  startIndicesBatchingDims := []
  startIndexMap := [0]
  indexVectorDim := 3
  sliceSizes := ![1, 64]
  wf := gather_S1000000x64_S4096x26x8x1_S4096x26x8x64_3_0_n_n_0_3_164_wf
def dot_S512x1664_S1664x1024_S512x1024_1_0_0_1_n_n : DotDims S512x1664 S1664x1024 S512x1024 where
  lhsContracting := [1]
  rhsContracting := [0]
  lhsNonContracting := [0]
  rhsNonContracting := [1]
  lhsBatch := []
  rhsBatch := []
  wf := dot_S512x1664_S1664x1024_S512x1024_1_0_0_1_n_n_wf
def dot_S512x1024_S1024x1664_S512x1664_1_0_0_1_n_n : DotDims S512x1024 S1024x1664 S512x1664 where
  lhsContracting := [1]
  rhsContracting := [0]
  lhsNonContracting := [0]
  rhsNonContracting := [1]
  lhsBatch := []
  rhsBatch := []
  wf := dot_S512x1024_S1024x1664_S512x1664_1_0_0_1_n_n_wf
def dot_S512x1664_S1664x512_S512x512_1_0_0_1_n_n : DotDims S512x1664 S1664x512 S512x512 where
  lhsContracting := [1]
  rhsContracting := [0]
  lhsNonContracting := [0]
  rhsNonContracting := [1]
  lhsBatch := []
  rhsBatch := []
  wf := dot_S512x1664_S1664x512_S512x512_1_0_0_1_n_n_wf
def dot_S512x512_S512x1664_S512x1664_1_0_0_1_n_n : DotDims S512x512 S512x1664 S512x1664 where
  lhsContracting := [1]
  rhsContracting := [0]
  lhsNonContracting := [0]
  rhsNonContracting := [1]
  lhsBatch := []
  rhsBatch := []
  wf := dot_S512x512_S512x1664_S512x1664_1_0_0_1_n_n_wf
def dot_S512x1664_S1664x1_S512x1_1_0_0_1_n_n : DotDims S512x1664 S1664x1 S512x1 where
  lhsContracting := [1]
  rhsContracting := [0]
  lhsNonContracting := [0]
  rhsNonContracting := [1]
  lhsBatch := []
  rhsBatch := []
  wf := dot_S512x1664_S1664x1_S512x1_1_0_0_1_n_n_wf

abbrev win0_0 : Pipeline.Window sig grid0 :=
  Pipeline.Window.ofSpec (Memref.whole main_v8) S512x1664.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1664x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1664.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x1664.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1664x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1024x1664.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x1664.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1664x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S512x1664.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21) S1x1664.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1664x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v22) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v23) S512x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4096x26x8 : Shape := ⟨3, ![4096, 26, 8]⟩
abbrev S1000000x64 : Shape := ⟨2, ![1000000, 64]⟩
abbrev S1664x1024 : Shape := ⟨2, ![1664, 1024]⟩
abbrev S1024 : Shape := ⟨1, ![1024]⟩
abbrev S1024x1664 : Shape := ⟨2, ![1024, 1664]⟩
abbrev S1664 : Shape := ⟨1, ![1664]⟩
abbrev S1664x512 : Shape := ⟨2, ![1664, 512]⟩
abbrev S512 : Shape := ⟨1, ![512]⟩
abbrev S512x1664 : Shape := ⟨2, ![512, 1664]⟩
abbrev S1664x1 : Shape := ⟨2, ![1664, 1]⟩
abbrev S1 : Shape := ⟨1, ![1]⟩
abbrev S_ : Shape := ⟨0, ![]⟩
abbrev S4096x26x8x1 : Shape := ⟨4, ![4096, 26, 8, 1]⟩
abbrev S4096x26x8x64 : Shape := ⟨4, ![4096, 26, 8, 64]⟩
abbrev S4096x26x64 : Shape := ⟨3, ![4096, 26, 64]⟩
abbrev S4096x1664 : Shape := ⟨2, ![4096, 1664]⟩
abbrev S4096x1024 : Shape := ⟨2, ![4096, 1024]⟩
abbrev S1x1024 : Shape := ⟨2, ![1, 1024]⟩
abbrev S1x1664 : Shape := ⟨2, ![1, 1664]⟩
abbrev S4096x512 : Shape := ⟨2, ![4096, 512]⟩
abbrev S1x512 : Shape := ⟨2, ![1, 512]⟩
abbrev S4096x1 : Shape := ⟨2, ![4096, 1]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S4096x26x8, .i32⟩
  | .hbm, ⟨1, _⟩ => ⟨S1000000x64, .f32⟩
  | .hbm, ⟨2, _⟩ => ⟨S1664x1024, .f32⟩
  | .hbm, ⟨3, _⟩ => ⟨S1024, .f32⟩
  | .hbm, ⟨4, _⟩ => ⟨S1024x1664, .f32⟩
  | .hbm, ⟨5, _⟩ => ⟨S1664, .f32⟩
  | .hbm, ⟨6, _⟩ => ⟨S1664x1024, .f32⟩
  | .hbm, ⟨7, _⟩ => ⟨S1024, .f32⟩
  | .hbm, ⟨8, _⟩ => ⟨S1024x1664, .f32⟩
  | .hbm, ⟨9, _⟩ => ⟨S1664, .f32⟩
  | .hbm, ⟨10, _⟩ => ⟨S1664x512, .f32⟩
  | .hbm, ⟨11, _⟩ => ⟨S512, .f32⟩
  | .hbm, ⟨12, _⟩ => ⟨S512x1664, .f32⟩
  | .hbm, ⟨13, _⟩ => ⟨S1664, .f32⟩
  | .hbm, ⟨14, _⟩ => ⟨S1664x1, .f32⟩
  | .hbm, ⟨15, _⟩ => ⟨S1, .f32⟩
  | .hbm, ⟨16, _⟩ => ⟨S_, .i32⟩
  | .hbm, ⟨17, _⟩ => ⟨S4096x26x8, .i32⟩
  | .hbm, ⟨18, _⟩ => ⟨S4096x26x8, .i1⟩
  | .hbm, ⟨19, _⟩ => ⟨S_, .i32⟩
  | .hbm, ⟨20, _⟩ => ⟨S4096x26x8, .i32⟩
  | .hbm, ⟨21, _⟩ => ⟨S4096x26x8, .i32⟩
  | .hbm, ⟨22, _⟩ => ⟨S4096x26x8, .i32⟩
  | .hbm, ⟨23, _⟩ => ⟨S4096x26x8x1, .i32⟩
  | .hbm, ⟨24, _⟩ => ⟨S4096x26x8x64, .f32⟩
  | .hbm, ⟨25, _⟩ => ⟨S_, .f32⟩
  | .hbm, ⟨26, _⟩ => ⟨S4096x26x64, .f32⟩
  | .hbm, ⟨27, _⟩ => ⟨S4096x1664, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1664, .f32⟩
  | .hbm, ⟨36, _⟩ => ⟨S1x1664, .f32⟩
  | .hbm, ⟨37, _⟩ => ⟨S4096x1664, .f32⟩
  | .hbm, ⟨38, _⟩ => ⟨S4096x1664, .f32⟩
  | .hbm, ⟨39, _⟩ => ⟨S4096x1664, .f32⟩
  | .hbm, ⟨40, _⟩ => ⟨S_, .f32⟩
  | .hbm, ⟨41, _⟩ => ⟨S4096x1664, .f32⟩
  | .hbm, ⟨42, _⟩ => ⟨S4096x1664, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1664, .f32⟩
  | .hbm, ⟨51, _⟩ => ⟨S1x1664, .f32⟩
  | .hbm, ⟨52, _⟩ => ⟨S4096x1664, .f32⟩
  | .hbm, ⟨53, _⟩ => ⟨S4096x1664, .f32⟩
  | .hbm, ⟨54, _⟩ => ⟨S4096x1664, .f32⟩
  | .hbm, ⟨55, _⟩ => ⟨S_, .f32⟩
  | .hbm, ⟨56, _⟩ => ⟨S4096x1664, .f32⟩
  | .hbm, ⟨57, _⟩ => ⟨S4096x1664, .f32⟩
  | .hbm, ⟨58, _⟩ => ⟨S4096x512, .f32⟩
  | .hbm, ⟨59, _⟩ => ⟨S1x512, .f32⟩
  | .hbm, ⟨60, _⟩ => ⟨S4096x512, .f32⟩
  | .hbm, ⟨61, _⟩ => ⟨S4096x512, .f32⟩
  | .hbm, ⟨62, _⟩ => ⟨S_, .f32⟩
  | .hbm, ⟨63, _⟩ => ⟨S4096x512, .f32⟩
  | .hbm, ⟨64, _⟩ => ⟨S4096x512, .f32⟩
  | .hbm, ⟨65, _⟩ => ⟨S4096x1664, .f32⟩
  | .hbm, ⟨66, _⟩ => ⟨S1x1664, .f32⟩
  | .hbm, ⟨67, _⟩ => ⟨S4096x1664, .f32⟩
  | .hbm, ⟨68, _⟩ => ⟨S4096x1664, .f32⟩
  | .hbm, ⟨69, _⟩ => ⟨S4096x1664, .f32⟩
  | .hbm, ⟨70, _⟩ => ⟨S_, .f32⟩
  | .hbm, ⟨71, _⟩ => ⟨S4096x1664, .f32⟩
  | .hbm, ⟨72, _⟩ => ⟨S4096x1664, .f32⟩
  | .hbm, ⟨73, _⟩ => ⟨S4096x1, .f32⟩
  | .hbm, ⟨74, _⟩ => ⟨S1x1, .f32⟩
  | .hbm, ⟨75, _⟩ => ⟨S4096x1, .f32⟩
  | .hbm, ⟨76, _⟩ => ⟨S4096x1, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | _, _ => ⟨S4096x26x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call0_cst : Ref sig .tc := ⟨.hbm, 32, rfl⟩
abbrev main_call0_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call1_cst : Ref sig .tc := ⟨.hbm, 40, rfl⟩
abbrev main_call1_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call2_cst : Ref sig .tc := ⟨.hbm, 47, rfl⟩
abbrev main_call2_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call3_cst : Ref sig .tc := ⟨.hbm, 55, rfl⟩
abbrev main_call3_v0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_call4_cst : Ref sig .tc := ⟨.hbm, 62, rfl⟩
abbrev main_call4_v0 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call5_cst : Ref sig .tc := ⟨.hbm, 70, rfl⟩
abbrev main_call5_v0 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_1 : Ref sig .tc := ⟨.hbm, 79, rfl⟩
abbrev main_v48 : Ref sig .tc := ⟨.hbm, 80, rfl⟩
abbrev main_v49 : Ref sig .tc := ⟨.hbm, 81, rfl⟩
abbrev main_cst_2 : Ref sig .tc := ⟨.hbm, 82, rfl⟩
abbrev main_v50 : Ref sig .tc := ⟨.hbm, 83, rfl⟩
abbrev main_v51 : Ref sig .tc := ⟨.hbm, 84, rfl⟩

abbrev nD : Nat := 1
abbrev τ : Topo := Topo.v7x

variable {F : FTy → Type} [FloatOps F]

class Facts₀ : Prop where
  bcast_S_S4096x26x8 : S_.BroadcastsInDim S4096x26x8 (![] : Fin 0 → Fin S4096x26x8.rank)
  bcast_S4096x26x8_S4096x26x8x1_0_1_2 : S4096x26x8.BroadcastsInDim S4096x26x8x1 (![0, 1, 2] : Fin 3 → Fin S4096x26x8x1.rank)
  reducesTo_S4096x26x8x64_S4096x26x64_d2 : S4096x26x8x64.ReducesTo [2] S4096x26x64
  h_S_ : 0 < S_.numel
  shapeCasts_S4096x26x64_S4096x1664 : S4096x26x64.ShapeCasts S4096x1664
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S1664_S1x1664_1 : S1664.BroadcastsInDim S1x1664 (![1] : Fin 1 → Fin S1x1664.rank)
  bcast_S1x1664_S4096x1664_0_1 : S1x1664.BroadcastsInDim S4096x1664 (![0, 1] : Fin 2 → Fin S4096x1664.rank)
  bcast_S_S4096x1664 : S_.BroadcastsInDim S4096x1664 (![] : Fin 0 → Fin S4096x1664.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  gather_S1000000x64_S4096x26x8x1_S4096x26x8x64_3_0_n_n_0_3_164_wf : GatherDims.WF S1000000x64 S4096x26x8x1 S4096x26x8x64 [3] [0] [] [0] [] 3 ![1, 64]
  dot_S4096x1664_S1664x1024_S4096x1024_1_0_0_1_n_n_wf : DotDims.WF S4096x1664 S1664x1024 S4096x1024 [1] [0] [0] [1] [] []
  dot_S4096x1024_S1024x1664_S4096x1664_1_0_0_1_n_n_wf : DotDims.WF S4096x1024 S1024x1664 S4096x1664 [1] [0] [0] [1] [] []
  dot_S4096x1664_S1664x512_S4096x512_1_0_0_1_n_n_wf : DotDims.WF S4096x1664 S1664x512 S4096x512 [1] [0] [0] [1] [] []
  dot_S4096x512_S512x1664_S4096x1664_1_0_0_1_n_n_wf : DotDims.WF S4096x512 S512x1664 S4096x1664 [1] [0] [0] [1] [] []
  dot_S4096x1664_S1664x1_S4096x1_1_0_0_1_n_n_wf : DotDims.WF S4096x1664 S1664x1 S4096x1 [1] [0] [0] [1] [] []

variable [Facts₀]

def gather_S1000000x64_S4096x26x8x1_S4096x26x8x64_3_0_n_n_0_3_164 : GatherDims S1000000x64 S4096x26x8x1 S4096x26x8x64 where
  offsetDims := [3]
  collapsedSliceDims := [0]
  operandBatchingDims := []
  startIndicesBatchingDims := []
  startIndexMap := [0]
  indexVectorDim := 3
  sliceSizes := ![1, 64]
  wf := gather_S1000000x64_S4096x26x8x1_S4096x26x8x64_3_0_n_n_0_3_164_wf
def dot_S4096x1664_S1664x1024_S4096x1024_1_0_0_1_n_n : DotDims S4096x1664 S1664x1024 S4096x1024 where
  lhsContracting := [1]
  rhsContracting := [0]
  lhsNonContracting := [0]
  rhsNonContracting := [1]
  lhsBatch := []
  rhsBatch := []
  wf := dot_S4096x1664_S1664x1024_S4096x1024_1_0_0_1_n_n_wf
def dot_S4096x1024_S1024x1664_S4096x1664_1_0_0_1_n_n : DotDims S4096x1024 S1024x1664 S4096x1664 where
  lhsContracting := [1]
  rhsContracting := [0]
  lhsNonContracting := [0]
  rhsNonContracting := [1]
  lhsBatch := []
  rhsBatch := []
  wf := dot_S4096x1024_S1024x1664_S4096x1664_1_0_0_1_n_n_wf
def dot_S4096x1664_S1664x512_S4096x512_1_0_0_1_n_n : DotDims S4096x1664 S1664x512 S4096x512 where
  lhsContracting := [1]
  rhsContracting := [0]
  lhsNonContracting := [0]
  rhsNonContracting := [1]
  lhsBatch := []
  rhsBatch := []
  wf := dot_S4096x1664_S1664x512_S4096x512_1_0_0_1_n_n_wf
def dot_S4096x512_S512x1664_S4096x1664_1_0_0_1_n_n : DotDims S4096x512 S512x1664 S4096x1664 where
  lhsContracting := [1]
  rhsContracting := [0]
  lhsNonContracting := [0]
  rhsNonContracting := [1]
  lhsBatch := []
  rhsBatch := []
  wf := dot_S4096x512_S512x1664_S4096x1664_1_0_0_1_n_n_wf
def dot_S4096x1664_S1664x1_S4096x1_1_0_0_1_n_n : DotDims S4096x1664 S1664x1 S4096x1 where
  lhsContracting := [1]
  rhsContracting := [0]
  lhsNonContracting := [0]
  rhsNonContracting := [1]
  lhsBatch := []
  rhsBatch := []
  wf := dot_S4096x1664_S1664x1_S4096x1_1_0_0_1_n_n_wf

class Facts : Prop extends Facts₀ where

variable [Facts]
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.LibHostRowOps.lean ====
/-
  Two operations a host program makes on a `[B, n]` array, each read at an entry.

  * A column `[B, 1]` laid along both axes of `[B, n]` by the host's broadcast: every lane of row `p` holds the
    column's entry of row `p`. This is how a host program spells a per-row factor kept as a column.
  * The host's product of an `M x K` matrix by a `K x N` matrix at the exact extended reals: entry `(p, c)` is the sum
    over `k` of left `(p, k)` times right `(k, c)`. Nothing is rounded and no order of accumulation is left. The
    product's dimension record enters only through how it places the coordinates: the left operand is read at
    (row of the result, k), the right operand at (k, column of the result); these placement facts are hypotheses, so
    the lemma serves any record of that pattern.

  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostRowOps

open Idealize.ShloMosaic Idealize.ShloMosaic.ValueIdx

variable {α : Type}

/-- A column laid along both axes of `[B, n]` holds the column's entry of row `p` in every lane of row `p`. -/
theorem bcastColHost_apply {B n : Nat} (y : (⟨2, ![B, 1]⟩ : Shape).Idx → α)
    (h : (⟨2, ![B, 1]⟩ : Shape).BroadcastsInDim (⟨2, ![B, n]⟩ : Shape) ![0, 1]) (p : Fin B) (q : Fin n) :
    broadcastInDim (⟨2, ![B, n]⟩ : Shape) ![0, 1] h y (ix2 p q) = y (ix2 p (0 : Fin 1)) :=
  broadcastInDim_apply _ h y (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- Entry (p, c) of the host's M x K by K x N product is the sum over k of left (p, k) * right (k, c). -/
theorem hostDot_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    Host.dotGeneral (F := Ideal) D prec l r (ix2 p c) = ∑ k : Fin K, l (ix2 p k) * r (ix2 k c) := by
  refine (Ideal.dotGeneral_apply D prec .single l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.HostRowOps

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.LibDenseRow.lean ====
/-
  A dense layer on one row of features, and its two spellings read at an entry.

  `denseRow x w b` is the affine image of a row `x` of `K` features under a `K x N` weight matrix `w` and a bias
  `b` of `N` entries: lane `c` holds the sum over `k` of `x k * w k c`, plus `b c`, on the extended reals.

  Two programs spell it differently.
  * A kernel multiplies a block `[B, K]` by the weights `[K, N]` in the matrix unit, into the zero accumulator, and
    adds a bias kept as one row `[1, N]` broadcast down the `B` rows.
  * A host program contracts `[B, K]` with `[K, N]` and adds a flat bias `[N]` laid first as a row `[1, N]` and
    then down the `B` rows.
  Row `p` of either result is `denseRow` of row `p` of the left operand: no entry of another row enters it. The
  products' dimension records enter only through how they place coordinates (the left operand read at (row, k), the
  right one at (k, column)); those placement facts are hypotheses, so the lemmas serve any record of that pattern.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«148122_j87179246174820_1_alg».proof.Proof.LibPlainMatmul
import proofs.«148122_j87179246174820_1_alg».proof.Proof.LibHostRowOps
import proofs.«148122_j87179246174820_1_alg».proof.Proof.LibRowBias

noncomputable section

open scoped BigOperators

namespace Cert.DenseRow

open Idealize.ShloMosaic Idealize.ShloMosaic.ValueIdx

/-- The affine image of a row: lane `c` is the sum over `k` of `x k * w k c`, plus `b c`. -/
def denseRow {K N : Nat} (x : Fin K → EReal) (w : Fin K → Fin N → EReal) (b : Fin N → EReal) : Fin N → EReal :=
  fun c => (∑ k : Fin K, x k * w k c) + b c

variable {α : Type}

/-- A flat vector laid as a single row by the host's broadcast holds, in lane `j`, the vector's entry `j`. -/
theorem hostFlatRow_apply {n : Nat} (v : (⟨1, ![n]⟩ : Shape).Idx → α)
    (h : (⟨1, ![n]⟩ : Shape).BroadcastsInDim (⟨2, ![1, n]⟩ : Shape) ![1]) (j : Fin n) :
    broadcastInDim (⟨2, ![1, n]⟩ : Shape) ![1] h v (ix2 (0 : Fin 1) j) = v (ix1 j) :=
  broadcastInDim_apply _ h v (ix2 (0 : Fin 1) j) (ix1 j) (fun a => match a with
    | ⟨0, _⟩ => by
        show j.val = if n = 1 then 0 else j.val
        split
        · have := j.isLt; omega
        · rfl)

/-- A single row laid down `B` rows by the host's broadcast holds the row's lane `j` in lane `j` of every row. -/
theorem hostRowDown_apply {B n : Nat} (y : (⟨2, ![1, n]⟩ : Shape).Idx → α)
    (h : (⟨2, ![1, n]⟩ : Shape).BroadcastsInDim (⟨2, ![B, n]⟩ : Shape) ![0, 1]) (p : Fin B) (j : Fin n) :
    broadcastInDim (⟨2, ![B, n]⟩ : Shape) ![0, 1] h y (ix2 p j) = y (ix2 (0 : Fin 1) j) :=
  broadcastInDim_apply _ h y (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

/-- The kernel's spelling: a matrix-unit product into the zero accumulator plus a bias row broadcast down the rows, read
    at entry `(p, c)`, is lane `c` of `denseRow` of row `p` of the left operand. -/
theorem kernelDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul D prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c := by
  show matmul D prec l r (constant (F := Ideal) (⟨2, ![B, N]⟩ : Shape) .f32 0x00000000#32) (ix2 p c)
      + broadcastTo (⟨2, ![B, N]⟩ : Shape) bias hb (ix2 p c) = _
  rw [Cert.PlainMatmul.matmul_zero_apply D hr hs hl0 hl1 hr0 hr1 prec l r p c, Cert.RowBias.bcastRow_apply bias hb p c]
  rfl

/-- The host's spelling: a contraction plus a flat bias laid as a row and then down the rows, read at entry `(p, c)`,
    is lane `c` of `denseRow` of row `p` of the left operand. -/
theorem hostDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) D prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c := by
  show Host.dotGeneral (F := Ideal) D prec l r (ix2 p c)
      + broadcastInDim (⟨2, ![B, N]⟩ : Shape) ![0, 1] h2 (broadcastInDim (⟨2, ![1, N]⟩ : Shape) ![1] h1 bias) (ix2 p c) = _
  rw [Cert.HostRowOps.hostDot_apply D hr hs hl0 hl1 hr0 hr1 prec l r p c, hostRowDown_apply _ h2 p c,
    hostFlatRow_apply bias h1 c]
  rfl

/-! ## The plain product `M x K` by `K x N`

  The library's record `DotDims.plain M K N` contracts the left operand's axis 1 with the right operand's axis 0 and has no
  batch axes. Its placement facts hold whatever the extents are, so the two spellings above need no hypotheses for it. A
  printed record with the same six lists is this record. -/

section Plain

variable (M K N : Nat)

theorem plain_rank : (DotDims.plain M K N).contr.rank = 1 := rfl

theorem plain_size : (DotDims.plain M K N).contr.size ⟨0, by rw [plain_rank]; exact Nat.one_pos⟩ = K := rfl

theorem plain_lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

theorem plain_rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

end Plain

/-- The kernel's spelling of a dense layer over the plain product. -/
theorem kernelDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul (DotDims.plain B K N) prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c :=
  kernelDense_apply (DotDims.plain B K N) (plain_rank B K N) (plain_size B K N) (plain_lhs0 B K N) (plain_lhs1 B K N)
    (plain_rhs0 B K N) (plain_rhs1 B K N) prec l r bias hb p c

/-- The host's spelling of a dense layer over the plain product. -/
theorem hostDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) (DotDims.plain B K N) prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c :=
  hostDense_apply (DotDims.plain B K N) (plain_rank B K N) (plain_size B K N) (plain_lhs0 B K N) (plain_lhs1 B K N)
    (plain_rhs0 B K N) (plain_rhs1 B K N) prec l r bias h1 h2 p c

end Cert.DenseRow

end
-- ==== Proof.Net.lean ====
/-
  The network both programs compute, on ONE row of pooled features, over the extended reals.

  A residual block sends a row `x` of `K` features to `relu (dense₂ (relu (dense₁ x)) + x)`: a dense layer up to `H`
  hidden lanes, the rectifier, a dense layer back to `K` lanes, the row itself added back, the rectifier again. The
  rectifier is the maximum with the value of the +0.0 word; both programs spell that same word, so it is kept as the
  word and never evaluated. Three blocks (hidden widths 1024, 1024 and 512 over rows of 1664 features) are followed by a
  dense layer to a single lane and the logistic function `1 / (1 + e⁻ˣ)`.

  `out` is the whole result array `[4096, 1]` as one function of the pooled-feature array `[4096, 1664]` and the
  weight arrays: entry `(r, 0)` is the network of row `r` of the features, and of no other row. That is why a program
  may compute it 512 rows at a time, or all rows at once, and end with the same array.
-/
import proofs.«148122_j87179246174820_1_alg».proof.Proof.LibDenseRow

noncomputable section

open scoped BigOperators

namespace Cert.Net

open Idealize.ShloMosaic Idealize.ShloMosaic.ValueIdx Cert.DenseRow

/-- The rectifier of a row: each lane's maximum with the value of the +0.0 word. -/
def relu {N : Nat} (v : Fin N → EReal) : Fin N → EReal := fun c => max (v c) (Ideal.ofBits .f32 0x00000000#32)

/-- One residual block on a row. -/
def block {K H : Nat} (x : Fin K → EReal) (w1 : Fin K → Fin H → EReal) (b1 : Fin H → EReal)
    (w2 : Fin H → Fin K → EReal) (b2 : Fin K → EReal) : Fin K → EReal :=
  relu fun c => denseRow (relu (denseRow x w1 b1)) w2 b2 c + x c

/-- The network on a row: three residual blocks, the last dense layer's single lane, the logistic function. -/
def net (x : Fin 1664 → EReal)
    (w10 : Fin 1664 → Fin 1024 → EReal) (b10 : Fin 1024 → EReal) (w20 : Fin 1024 → Fin 1664 → EReal) (b20 : Fin 1664 → EReal)
    (w11 : Fin 1664 → Fin 1024 → EReal) (b11 : Fin 1024 → EReal) (w21 : Fin 1024 → Fin 1664 → EReal) (b21 : Fin 1664 → EReal)
    (w12 : Fin 1664 → Fin 512 → EReal) (b12 : Fin 512 → EReal) (w22 : Fin 512 → Fin 1664 → EReal) (b22 : Fin 1664 → EReal)
    (lw : Fin 1664 → Fin 1 → EReal) (lb : Fin 1 → EReal) : EReal :=
  Ideal.logistic
    (denseRow (block (block (block x w10 b10 w20 b20) w11 b11 w21 b21) w12 b12 w22 b22) lw lb (0 : Fin 1))

/-- The +1.0 word denotes the real number one. -/
theorem ofBits_one_f32 : Ideal.ofBits .f32 0x3F800000#32 = 1 := by
  simp [Ideal.ofBits, Ideal.ieee, -EReal.coe_mul]; norm_num

/-- The logistic function spelt out with the +1.0 word, a negation, an exponential, a sum and a quotient — the way a
    host program expands it — is the logistic function. -/
theorem logistic_expanded (v : EReal) :
    Ideal.div (Ideal.ofBits .f32 0x3F800000#32) (Ideal.ofBits .f32 0x3F800000#32 + Ideal.exp (-v)) = Ideal.logistic v := by
  rw [ofBits_one_f32]; rfl

/-- A matrix held as an array `[K, N]`, by rows and lanes. -/
abbrev mat {K N : Nat} (a : (⟨2, ![K, N]⟩ : Shape).Idx → EReal) : Fin K → Fin N → EReal := fun k c => a (ix2 k c)

/-- A flat vector held as an array `[N]`, by lanes. -/
abbrev vec {N : Nat} (a : (⟨1, ![N]⟩ : Shape).Idx → EReal) : Fin N → EReal := fun c => a (ix1 c)

/-- Row `p` of an array `[B, K]`, by lanes. -/
abbrev rowOf {B K : Nat} (a : (⟨2, ![B, K]⟩ : Shape).Idx → EReal) (p : Fin B) : Fin K → EReal := fun k => a (ix2 p k)

/-- The result array: entry `(r, 0)` is the network of row `r` of the pooled features. -/
def out (feat : (⟨2, ![4096, 1664]⟩ : Shape).Idx → EReal)
    (a2 : (⟨2, ![1664, 1024]⟩ : Shape).Idx → EReal) (a3 : (⟨1, ![1024]⟩ : Shape).Idx → EReal)
    (a4 : (⟨2, ![1024, 1664]⟩ : Shape).Idx → EReal) (a5 : (⟨1, ![1664]⟩ : Shape).Idx → EReal)
    (a6 : (⟨2, ![1664, 1024]⟩ : Shape).Idx → EReal) (a7 : (⟨1, ![1024]⟩ : Shape).Idx → EReal)
    (a8 : (⟨2, ![1024, 1664]⟩ : Shape).Idx → EReal) (a9 : (⟨1, ![1664]⟩ : Shape).Idx → EReal)
    (a10 : (⟨2, ![1664, 512]⟩ : Shape).Idx → EReal) (a11 : (⟨1, ![512]⟩ : Shape).Idx → EReal)
    (a12 : (⟨2, ![512, 1664]⟩ : Shape).Idx → EReal) (a13 : (⟨1, ![1664]⟩ : Shape).Idx → EReal)
    (a14 : (⟨2, ![1664, 1]⟩ : Shape).Idx → EReal) (a15 : (⟨1, ![1]⟩ : Shape).Idx → EReal) :
    (⟨2, ![4096, 1]⟩ : Shape).Idx → EReal :=
  fun j => net (rowOf feat (j 0)) (mat a2) (vec a3) (mat a4) (vec a5) (mat a6) (vec a7) (mat a8) (vec a9)
    (mat a10) (vec a11) (mat a12) (vec a13) (mat a14) (vec a15)

end Cert.Net

end
-- ==== Proof.KernelRow.lean ====
/-
  The kernel body's arithmetic read at an entry.

  The body works on a block of 512 rows. Each matrix-unit product contracts over the lanes of a row, each bias is one row
  laid down the block, and the rectifier, the residual sum and the logistic function act lane by lane. So entry `(p, c)`
  of every intermediate value depends on row `p` of the block of pooled features only, and the body's stored value at
  `(p, 0)` is the network of that row.

  The three pieces a residual block is made of are read at an entry first, over arbitrary extents: the hidden half
  (dense layer, rectifier), the output half (dense layer, the row added back, rectifier) and the head (dense layer to
  one lane, logistic function). The body's four values are then these pieces put together.
-/
import proofs.«148122_j87179246174820_1_alg».proof.Proof.Gen.KernelIdeal.Skeleton
import proofs.«148122_j87179246174820_1_alg».proof.Proof.Net

noncomputable section

open scoped BigOperators

namespace Cert.KernelRow

open Cert.KernelIdeal Cert.KernelIdeal.Gen Idealize.ShloMosaic Idealize.ShloMosaic.ValueIdx Cert.DenseRow Cert.Net

/-- A bias kept as one row `[1, N]`, by lanes. -/
abbrev row0 {N : Nat} (b : (⟨2, ![1, N]⟩ : Shape).Idx → EReal) : Fin N → EReal := fun c => b (ix2 (0 : Fin 1) c)

/-! ## The pieces, over arbitrary extents -/

/-- The hidden half: lane `k` of row `p` is the rectified dense image of row `p`. -/
theorem hidden_apply {B K H : Nat} (x : FVec Ideal (⟨2, ![B, K]⟩ : Shape) .f32)
    (w : FVec Ideal (⟨2, ![K, H]⟩ : Shape) .bf16) (b : FVec Ideal (⟨2, ![1, H]⟩ : Shape) .f32)
    (hb : Shape.Broadcasts (⟨2, ![1, H]⟩ : Shape) (⟨2, ![B, H]⟩ : Shape)) (ht : FTy.bf16.bits < FTy.f32.bits)
    (p : Fin B) (k : Fin H) :
    truncf .bf16 (maximumf (addf (matmul (DotDims.plain B K H) none (truncf .bf16 x ht) w
        (constant (F := Ideal) (⟨2, ![B, H]⟩ : Shape) .f32 0x00000000#32)) (broadcastTo (⟨2, ![B, H]⟩ : Shape) b hb))
        (broadcast (⟨2, ![B, H]⟩ : Shape) (Scalar.ofBits (F := Ideal) .f32 0x00000000#32))) ht (ix2 p k)
      = relu (denseRow (rowOf x p) (mat w) (row0 b)) k := by
  simp only [truncf_apply, maximumf_apply, broadcast_apply]
  rw [kernelDensePlain_apply]
  rfl

/-- The output half: lane `c` of row `p` is the dense image of the hidden row `p`, plus the entry added back,
    rectified. -/
theorem outHalf_apply {B H K : Nat} (hd : FVec Ideal (⟨2, ![B, H]⟩ : Shape) .bf16)
    (w : FVec Ideal (⟨2, ![H, K]⟩ : Shape) .bf16) (b : FVec Ideal (⟨2, ![1, K]⟩ : Shape) .f32)
    (hb : Shape.Broadcasts (⟨2, ![1, K]⟩ : Shape) (⟨2, ![B, K]⟩ : Shape))
    (x : FVec Ideal (⟨2, ![B, K]⟩ : Shape) .f32) (p : Fin B) (c : Fin K) :
    maximumf (addf (addf (matmul (DotDims.plain B H K) none hd w
        (constant (F := Ideal) (⟨2, ![B, K]⟩ : Shape) .f32 0x00000000#32)) (broadcastTo (⟨2, ![B, K]⟩ : Shape) b hb)) x)
        (broadcast (⟨2, ![B, K]⟩ : Shape) (Scalar.ofBits (F := Ideal) .f32 0x00000000#32)) (ix2 p c)
      = max (denseRow (rowOf hd p) (mat w) (row0 b) c + x (ix2 p c)) (Ideal.ofBits .f32 0x00000000#32) := by
  simp only [maximumf_apply, broadcast_apply]
  rw [addf_apply (addf _ _) x, kernelDensePlain_apply]
  rfl

/-- A whole residual block in the kernel's spelling, read at an entry. -/
theorem block_apply {B K H : Nat} (x : FVec Ideal (⟨2, ![B, K]⟩ : Shape) .f32)
    (w1 : FVec Ideal (⟨2, ![K, H]⟩ : Shape) .bf16) (b1 : FVec Ideal (⟨2, ![1, H]⟩ : Shape) .f32)
    (w2 : FVec Ideal (⟨2, ![H, K]⟩ : Shape) .bf16) (b2 : FVec Ideal (⟨2, ![1, K]⟩ : Shape) .f32)
    (hb1 : Shape.Broadcasts (⟨2, ![1, H]⟩ : Shape) (⟨2, ![B, H]⟩ : Shape))
    (hb2 : Shape.Broadcasts (⟨2, ![1, K]⟩ : Shape) (⟨2, ![B, K]⟩ : Shape)) (ht : FTy.bf16.bits < FTy.f32.bits)
    (p : Fin B) (c : Fin K) :
    maximumf (addf (addf (matmul (DotDims.plain B H K) none
        (truncf .bf16 (maximumf (addf (matmul (DotDims.plain B K H) none (truncf .bf16 x ht) w1
          (constant (F := Ideal) (⟨2, ![B, H]⟩ : Shape) .f32 0x00000000#32)) (broadcastTo (⟨2, ![B, H]⟩ : Shape) b1 hb1))
          (broadcast (⟨2, ![B, H]⟩ : Shape) (Scalar.ofBits (F := Ideal) .f32 0x00000000#32))) ht) w2
        (constant (F := Ideal) (⟨2, ![B, K]⟩ : Shape) .f32 0x00000000#32)) (broadcastTo (⟨2, ![B, K]⟩ : Shape) b2 hb2)) x)
        (broadcast (⟨2, ![B, K]⟩ : Shape) (Scalar.ofBits (F := Ideal) .f32 0x00000000#32)) (ix2 p c)
      = block (rowOf x p) (mat w1) (row0 b1) (mat w2) (row0 b2) c := by
  refine (outHalf_apply _ w2 b2 hb2 x p c).trans ?_
  exact congrArg (fun f => max (denseRow f (mat w2) (row0 b2) c + x (ix2 p c)) (Ideal.ofBits .f32 0x00000000#32))
    (funext fun k => hidden_apply x w1 b1 hb1 ht p k)

/-- The head: the last dense layer's lane of row `p`, through the logistic function. -/
theorem head_apply {B K N : Nat} (x : FVec Ideal (⟨2, ![B, K]⟩ : Shape) .f32)
    (w : FVec Ideal (⟨2, ![K, N]⟩ : Shape) .bf16) (b : FVec Ideal (⟨2, ![1, N]⟩ : Shape) .f32)
    (hb : Shape.Broadcasts (⟨2, ![1, N]⟩ : Shape) (⟨2, ![B, N]⟩ : Shape)) (ht : FTy.bf16.bits < FTy.f32.bits)
    (p : Fin B) (q : Fin N) :
    logistic (addf (matmul (DotDims.plain B K N) none (truncf .bf16 x ht) w
        (constant (F := Ideal) (⟨2, ![B, N]⟩ : Shape) .f32 0x00000000#32)) (broadcastTo (⟨2, ![B, N]⟩ : Shape) b hb)) (ix2 p q)
      = Ideal.logistic (denseRow (rowOf x p) (mat w) (row0 b) q) := by
  show Ideal.logistic (addf (matmul (DotDims.plain B K N) none (truncf .bf16 x ht) w
        (constant (F := Ideal) (⟨2, ![B, N]⟩ : Shape) .f32 0x00000000#32)) (broadcastTo (⟨2, ![B, N]⟩ : Shape) b hb) (ix2 p q)) = _
  rw [kernelDensePlain_apply]
  rfl

/-! ## The body's values

  The printed products are the plain products of their extents. -/

theorem dotA : dot_S512x1664_S1664x1024_S512x1024_1_0_0_1_n_n = DotDims.plain 512 1664 1024 := rfl
theorem dotB : dot_S512x1024_S1024x1664_S512x1664_1_0_0_1_n_n = DotDims.plain 512 1024 1664 := rfl
theorem dotC : dot_S512x1664_S1664x512_S512x512_1_0_0_1_n_n = DotDims.plain 512 1664 512 := rfl
theorem dotD : dot_S512x512_S512x1664_S512x1664_1_0_0_1_n_n = DotDims.plain 512 512 1664 := rfl
theorem dotE : dot_S512x1664_S1664x1_S512x1_1_0_0_1_n_n = DotDims.plain 512 1664 1 := rfl

/-- The first value is the first residual block of the feature block, row by row. -/
theorem pay1_apply (v0 : FVec Ideal S512x1664 .f32) (v3 : FVec Ideal S1664x1024 .bf16) (v6 : FVec Ideal S1x1024 .f32)
    (v13 : FVec Ideal S1024x1664 .bf16) (v16 : FVec Ideal S1x1664 .f32) (p : Fin 512) (c : Fin 1664) :
    k0_pay1 (F := Ideal) v0 v3 v6 v13 v16 (ix2 p c)
      = block (rowOf v0 p) (mat v3) (row0 v6) (mat v13) (row0 v16) c := by
  unfold k0_pay1
  simp only [shapeCast_self]
  rw [dotA, dotB]
  exact block_apply v0 v3 v6 v13 v16 _ _ _ p c

/-- The second value is the hidden half of the second block, of the first block's rows. -/
theorem pay2_apply (v0 : FVec Ideal S512x1664 .f32) (v3 : FVec Ideal S1664x1024 .bf16) (v6 : FVec Ideal S1x1024 .f32)
    (v13 : FVec Ideal S1024x1664 .bf16) (v16 : FVec Ideal S1x1664 .f32) (v24 : FVec Ideal S1664x1024 .bf16)
    (v27 : FVec Ideal S1x1024 .f32) (p : Fin 512) (k : Fin 1024) :
    k0_pay2 (F := Ideal) v0 v3 v6 v13 v16 v24 v27 (ix2 p k)
      = relu (denseRow (block (rowOf v0 p) (mat v3) (row0 v6) (mat v13) (row0 v16)) (mat v24) (row0 v27)) k := by
  unfold k0_pay2
  simp only [shapeCast_self]
  rw [dotA]
  refine (hidden_apply (k0_pay1 (F := Ideal) v0 v3 v6 v13 v16) v24 v27 _ _ p k).trans ?_
  exact congrArg (fun f => relu (denseRow f (mat v24) (row0 v27)) k) (funext fun c => pay1_apply v0 v3 v6 v13 v16 p c)

/-- The third value is the second block's second weight matrix as loaded. -/
theorem pay3_eq (v34 : FVec Ideal S1024x1664 .bf16) : k0_pay3 (F := Ideal) v34 = v34 := by
  unfold k0_pay3
  exact shapeCast_self _ _

/-- The stored value: the output half of the second block (from its hidden half `v33` and the first block's output
    `v22`), the third block, the head. -/
theorem pay4_apply (v22 : FVec Ideal S512x1664 .f32) (v33 : FVec Ideal S512x1024 .bf16) (v35 : FVec Ideal S1024x1664 .bf16)
    (v37 : FVec Ideal S1x1664 .f32) (v45 : FVec Ideal S1664x512 .bf16) (v48 : FVec Ideal S1x512 .f32)
    (v55 : FVec Ideal S512x1664 .bf16) (v58 : FVec Ideal S1x1664 .f32) (v66 : FVec Ideal S1664x1 .bf16)
    (v69 : FVec Ideal S1x1 .f32) (p : Fin 512) (q : Fin 1) :
    k0_pay4 (F := Ideal) v22 v33 v35 (constant (F := Ideal) S512x1664 .f32 0x00000000#32) v37 v45 v48 v55 v58 v66 v69 (ix2 p q)
      = Ideal.logistic (denseRow
          (block (fun c => max (denseRow (rowOf v33 p) (mat v35) (row0 v37) c + v22 (ix2 p c)) (Ideal.ofBits .f32 0x00000000#32))
            (mat v45) (row0 v48) (mat v55) (row0 v58)) (mat v66) (row0 v69) q) := by
  unfold k0_pay4
  simp only [shapeCast_self]
  rw [dotB, dotC, dotD, dotE]
  refine (head_apply _ v66 v69 _ _ p q).trans ?_
  refine congrArg (fun f => Ideal.logistic (denseRow f (mat v66) (row0 v69) q)) (funext fun c => ?_)
  refine (block_apply _ v45 v48 v55 v58 _ _ _ p c).trans ?_
  exact congrArg (fun f => block f (mat v45) (row0 v48) (mat v55) (row0 v58) c)
    (funext fun c' => outHalf_apply v33 v35 v37 _ v22 p c')

/-- THE BODY AT A ROW: what the body stores at `(p, 0)` is the network of row `p` of the feature block, with the
    weight blocks as matrices and the bias blocks as rows. -/
theorem body_apply (x0 : FVec Ideal S512x1664 .f32) (x1 : FVec Ideal S1664x1024 .bf16) (x2 : FVec Ideal S1x1024 .f32)
    (x3 : FVec Ideal S1024x1664 .bf16) (x4 : FVec Ideal S1x1664 .f32) (x5 : FVec Ideal S1664x1024 .bf16)
    (x6 : FVec Ideal S1x1024 .f32) (x7 : FVec Ideal S1024x1664 .bf16) (x8 : FVec Ideal S1x1664 .f32)
    (x9 : FVec Ideal S1664x512 .bf16) (x10 : FVec Ideal S1x512 .f32) (x11 : FVec Ideal S512x1664 .bf16)
    (x12 : FVec Ideal S1x1664 .f32) (x13 : FVec Ideal S1664x1 .bf16) (x14 : FVec Ideal S1x1 .f32) (p : Fin 512) :
    k0_pay4 (F := Ideal) (k0_pay1 (F := Ideal) x0 x1 x2 x3 x4) (k0_pay2 (F := Ideal) x0 x1 x2 x3 x4 x5 x6)
        (k0_pay3 (F := Ideal) x7) (constant (F := Ideal) S512x1664 .f32 0x00000000#32) x8 x9 x10 x11 x12 x13 x14
        (ix2 p (0 : Fin 1))
      = net (rowOf x0 p) (mat x1) (row0 x2) (mat x3) (row0 x4) (mat x5) (row0 x6) (mat x7) (row0 x8)
          (mat x9) (row0 x10) (mat x11) (row0 x12) (mat x13) (row0 x14) := by
  refine (pay4_apply _ _ _ x8 x9 x10 x11 x12 x13 x14 p 0).trans ?_
  have e : (fun c => max (denseRow (rowOf (k0_pay2 (F := Ideal) x0 x1 x2 x3 x4 x5 x6) p) (mat (k0_pay3 (F := Ideal) x7)) (row0 x8) c
        + k0_pay1 (F := Ideal) x0 x1 x2 x3 x4 (ix2 p c)) (Ideal.ofBits .f32 0x00000000#32))
      = block (block (rowOf x0 p) (mat x1) (row0 x2) (mat x3) (row0 x4)) (mat x5) (row0 x6) (mat x7) (row0 x8) := by
    funext c
    rw [pay3_eq, pay1_apply x0 x1 x2 x3 x4 p c,
      show rowOf (k0_pay2 (F := Ideal) x0 x1 x2 x3 x4 x5 x6) p
          = relu (denseRow (block (rowOf x0 p) (mat x1) (row0 x2) (mat x3) (row0 x4)) (mat x5) (row0 x6))
        from funext fun k => pay2_apply x0 x1 x2 x3 x4 x5 x6 p k]
    rfl
  exact congrArg (fun f => Ideal.logistic (denseRow (block f (mat x9) (row0 x10) (mat x11) (row0 x12)) (mat x13) (row0 x14) (0 : Fin 1))) e

end Cert.KernelRow

end
-- ==== Proof.KernelValue.lean ====
/-
  From the kernel's blocks to its result array.

  The grid has eight points. At point `t` the feature window holds rows `512 t … 512 t + 511` of the pooled features,
  every weight and bias window holds its whole array (block index zero on both axes at every point), and the output window
  is written back to rows `512 t … 512 t + 511` of the result. The pooled features are what the host operations before
  the region leave in their buffer; the weight arrays are the arguments narrowed, which at the exact extended reals
  changes nothing, and the bias rows are the flat arguments recast as single rows.

  The body stores at `(p, 0)` the network of row `p` of its feature block, so point `t` writes back exactly rows
  `512 t …` of `result`: the network applied to every row of the pooled features. The eight blocks tile the result
  array, so after the run the array is `result`.
-/
import proofs.«148122_j87179246174820_1_alg».proof.Proof.Gen.KernelIdeal.Value
import proofs.«148122_j87179246174820_1_alg».proof.Proof.KernelRow
import Idealize.ShloMosaic.Lib.StableHlo.Run

noncomputable section

namespace Cert.KernelValue

open Cert.KernelIdeal Cert.KernelIdeal.Gen Idealize.ShloMosaic Idealize.ShloMosaic.TcCoe Idealize.SL.Sem
open Idealize.ShloMosaic.ValueIdx Cert.DenseRow Cert.Net Cert.KernelRow
open Idealize.ShloMosaic.Pipeline (Dat)

/-! ## One point, over plain arrays

  If a feature block's row `y 0` is row `i 0` of a feature array, and the weight and bias blocks hold the weight
  arrays and the flat biases, the body's stored value at `y` is the result array's entry `i`. -/

theorem point_eq (x0 : FVec Ideal S512x1664 .f32) (x1 : FVec Ideal S1664x1024 .bf16) (x2 : FVec Ideal S1x1024 .f32) (x3 : FVec Ideal S1024x1664 .bf16) (x4 : FVec Ideal S1x1664 .f32) (x5 : FVec Ideal S1664x1024 .bf16) (x6 : FVec Ideal S1x1024 .f32) (x7 : FVec Ideal S1024x1664 .bf16) (x8 : FVec Ideal S1x1664 .f32) (x9 : FVec Ideal S1664x512 .bf16) (x10 : FVec Ideal S1x512 .f32) (x11 : FVec Ideal S512x1664 .bf16) (x12 : FVec Ideal S1x1664 .f32) (x13 : FVec Ideal S1664x1 .bf16) (x14 : FVec Ideal S1x1 .f32)
    (feat : S4096x1664.Idx → EReal) (a2 : S1664x1024.Idx → EReal) (a3 : S1024.Idx → EReal) (a4 : S1024x1664.Idx → EReal) (a5 : S1664.Idx → EReal) (a6 : S1664x1024.Idx → EReal) (a7 : S1024.Idx → EReal) (a8 : S1024x1664.Idx → EReal) (a9 : S1664.Idx → EReal) (a10 : S1664x512.Idx → EReal) (a11 : S512.Idx → EReal) (a12 : S512x1664.Idx → EReal) (a13 : S1664.Idx → EReal) (a14 : S1664x1.Idx → EReal) (a15 : S1.Idx → EReal)
    (y : S512x1.Idx) (i : S4096x1.Idx)
    (h0 : ∀ k : Fin 1664, x0 (ix2 (y 0) k) = feat (ix2 (i 0) k))
    (h1 : ∀ (k : Fin 1664) (j : Fin 1024), x1 (ix2 k j) = a2 (ix2 k j))
    (h2 : ∀ j : Fin 1024, x2 (ix2 (0 : Fin 1) j) = a3 (ix1 j))
    (h3 : ∀ (k : Fin 1024) (j : Fin 1664), x3 (ix2 k j) = a4 (ix2 k j))
    (h4 : ∀ j : Fin 1664, x4 (ix2 (0 : Fin 1) j) = a5 (ix1 j))
    (h5 : ∀ (k : Fin 1664) (j : Fin 1024), x5 (ix2 k j) = a6 (ix2 k j))
    (h6 : ∀ j : Fin 1024, x6 (ix2 (0 : Fin 1) j) = a7 (ix1 j))
    (h7 : ∀ (k : Fin 1024) (j : Fin 1664), x7 (ix2 k j) = a8 (ix2 k j))
    (h8 : ∀ j : Fin 1664, x8 (ix2 (0 : Fin 1) j) = a9 (ix1 j))
    (h9 : ∀ (k : Fin 1664) (j : Fin 512), x9 (ix2 k j) = a10 (ix2 k j))
    (h10 : ∀ j : Fin 512, x10 (ix2 (0 : Fin 1) j) = a11 (ix1 j))
    (h11 : ∀ (k : Fin 512) (j : Fin 1664), x11 (ix2 k j) = a12 (ix2 k j))
    (h12 : ∀ j : Fin 1664, x12 (ix2 (0 : Fin 1) j) = a13 (ix1 j))
    (h13 : ∀ (k : Fin 1664) (j : Fin 1), x13 (ix2 k j) = a14 (ix2 k j))
    (h14 : ∀ j : Fin 1, x14 (ix2 (0 : Fin 1) j) = a15 (ix1 j)) :
    k0_pay4 (F := Ideal) (k0_pay1 (F := Ideal) x0 x1 x2 x3 x4) (k0_pay2 (F := Ideal) x0 x1 x2 x3 x4 x5 x6)
        (k0_pay3 (F := Ideal) x7) (constant (F := Ideal) S512x1664 .f32 0x00000000#32) x8 x9 x10 x11 x12 x13 x14 y
      = Net.out feat a2 a3 a4 a5 a6 a7 a8 a9 a10 a11 a12 a13 a14 a15 i := by
  obtain ⟨p, q, rfl⟩ : ∃ (p : Fin 512) (q : Fin 1), y = ix2 p q := ⟨y 0, y 1, eq_ix2 y⟩
  obtain rfl : q = 0 := Subsingleton.elim _ _
  have e0 : rowOf x0 p = rowOf feat (i 0) := funext h0
  have e1 : mat x1 = mat a2 := funext fun k => funext fun j => h1 k j
  have e2 : row0 x2 = vec a3 := funext h2
  have e3 : mat x3 = mat a4 := funext fun k => funext fun j => h3 k j
  have e4 : row0 x4 = vec a5 := funext h4
  have e5 : mat x5 = mat a6 := funext fun k => funext fun j => h5 k j
  have e6 : row0 x6 = vec a7 := funext h6
  have e7 : mat x7 = mat a8 := funext fun k => funext fun j => h7 k j
  have e8 : row0 x8 = vec a9 := funext h8
  have e9 : mat x9 = mat a10 := funext fun k => funext fun j => h9 k j
  have e10 : row0 x10 = vec a11 := funext h10
  have e11 : mat x11 = mat a12 := funext fun k => funext fun j => h11 k j
  have e12 : row0 x12 = vec a13 := funext h12
  have e13 : mat x13 = mat a14 := funext fun k => funext fun j => h13 k j
  have e14 : row0 x14 = vec a15 := funext h14
  rw [body_apply, e0, e1, e2, e3, e4, e5, e6, e7, e8, e9, e10, e11, e12, e13, e14]
  rfl

variable (m : (ℓ : Loc nD τ sig) → Buf (Elt Ideal) ℓ) (ρ : Dev nD → PrngReg)

/-! ## The windows' blocks

  Where each window's block sits, decided over the eight grid points. -/

theorem idx0 : ∀ t : Fin cfg0.N, win0_0.index t (0 : Fin 2) = t.val ∧ win0_0.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)

/-- The feature window's block at point `t` is rows `512 t …` of the pooled features as the region finds them. -/
theorem read0 (c : Dev nD) (t : Fin cfg0.N) (x : S512x1664.Idx) (k : S4096x1664.Idx)
    (hk0 : (k 0).val = t.val * 512 + (x 0).val) (hk1 : (k 1).val = (x 1).val) :
    (iblk m c 0 t : Vec Ideal S512x1664 .f32) x = (V m c main_v8 : S4096x1664.Idx → EReal) k := by
  obtain ⟨e0, e1⟩ := idx0 t
  unfold iblk
  rw [View.read_apply]
  show (V m c main_v8 : S4096x1664.Idx → EReal) _ = _
  refine congrArg (V m c main_v8 : S4096x1664.Idx → EReal) ?_
  funext a
  apply Fin.ext
  match a with
  | ⟨0, _⟩ => show win0_0.index t (0 : Fin 2) * 512 + 1 * (x 0).val = (k 0).val; rw [e0, hk0]; omega
  | ⟨1, _⟩ => show win0_0.index t (1 : Fin 2) * 1664 + 1 * (x 1).val = (k 1).val; rw [e1, hk1]; omega

/-- Window 1's block is the whole weight array, which the host narrowed from argument `main_arg2`: at the exact
    extended reals narrowing changes nothing. -/
theorem blk1 (c : Dev nD) (t : Fin cfg0.N) (z : S1664x1024.Idx) :
    (iblk m c 1 t : Vec Ideal S1664x1024 .bf16) z = (V m c main_v9 : S1664x1024.Idx → EReal) z := by
  obtain ⟨e0, e1⟩ := idx1 t
  unfold iblk
  rw [View.read_apply]
  show (V m c main_v9 : S1664x1024.Idx → EReal) _ = _
  refine congrArg (V m c main_v9 : S1664x1024.Idx → EReal) ?_
  funext a
  apply Fin.ext
  match a with
  | ⟨0, _⟩ => show win0_1.index t (0 : Fin 2) * 1664 + 1 * (z 0).val = (z 0).val; rw [e0]; omega
  | ⟨1, _⟩ => show win0_1.index t (1 : Fin 2) * 1024 + 1 * (z 1).val = (z 1).val; rw [e1]; omega

theorem read1 (c : Dev nD) (t : Fin cfg0.N) (k : Fin 1664) (j : Fin 1024) :
    (iblk m c 1 t : Vec Ideal S1664x1024 .bf16) (ix2 k j) = ((m ((c : Thread nD τ).loc main_arg2)) : S1664x1024.Idx → EReal) (ix2 k j) := by
  have hV : @Eq (S1664x1024.Idx → EReal) (V m c main_v9)
      (truncf (F := Ideal) (s := S1664x1024) (φ := .f32) .bf16 (m ((c : Thread nD τ).loc main_arg2)) bitsLt_bf16_f32) := by
    dsimp only [Gen.V, Gen.hostOps0]
    after_results
  exact (blk1 m c t (ix2 k j)).trans (congrFun hV (ix2 k j))

/-- Window 2's block is the whole bias row, which the host recast from the flat argument `main_arg3`: lane `j` of the
    row is entry `j` of the argument. -/
theorem blk2 (c : Dev nD) (t : Fin cfg0.N) (z : S1x1024.Idx) :
    (iblk m c 2 t : Vec Ideal S1x1024 .f32) z = (V m c main_v16 : S1x1024.Idx → EReal) z := by
  obtain ⟨e0, e1⟩ := idx2 t
  unfold iblk
  rw [View.read_apply]
  show (V m c main_v16 : S1x1024.Idx → EReal) _ = _
  refine congrArg (V m c main_v16 : S1x1024.Idx → EReal) ?_
  funext a
  apply Fin.ext
  match a with
  | ⟨0, _⟩ => show win0_2.index t (0 : Fin 2) * 1 + 1 * (z 0).val = (z 0).val; rw [e0]; omega
  | ⟨1, _⟩ => show win0_2.index t (1 : Fin 2) * 1024 + 1 * (z 1).val = (z 1).val; rw [e1]; omega

theorem read2 (c : Dev nD) (t : Fin cfg0.N) (j : Fin 1024) :
    (iblk m c 2 t : Vec Ideal S1x1024 .f32) (ix2 (0 : Fin 1) j) = ((m ((c : Thread nD τ).loc main_arg3)) : S1024.Idx → EReal) (ix1 j) := by
  have hV : @Eq (S1x1024.Idx → EReal) (V m c main_v16)
      (shapeCast S1x1024 ((m ((c : Thread nD τ).loc main_arg3)) : S1024.Idx → EReal) shapeCasts_S1024_S1x1024) := by
    dsimp only [Gen.V, Gen.hostOps0]
    after_results
    rfl
  exact ((blk2 m c t (ix2 (0 : Fin 1) j)).trans (congrFun hV (ix2 (0 : Fin 1) j))).trans
    (Cert.RowBias.castRow_apply _ _ j)

/-- Window 3's block is the whole weight array, which the host narrowed from argument `main_arg4`: at the exact
    extended reals narrowing changes nothing. -/
theorem blk3 (c : Dev nD) (t : Fin cfg0.N) (z : S1024x1664.Idx) :
    (iblk m c 3 t : Vec Ideal S1024x1664 .bf16) z = (V m c main_v10 : S1024x1664.Idx → EReal) z := by
  obtain ⟨e0, e1⟩ := idx3 t
  unfold iblk
  rw [View.read_apply]
  show (V m c main_v10 : S1024x1664.Idx → EReal) _ = _
  refine congrArg (V m c main_v10 : S1024x1664.Idx → EReal) ?_
  funext a
  apply Fin.ext
  match a with
  | ⟨0, _⟩ => show win0_3.index t (0 : Fin 2) * 1024 + 1 * (z 0).val = (z 0).val; rw [e0]; omega
  | ⟨1, _⟩ => show win0_3.index t (1 : Fin 2) * 1664 + 1 * (z 1).val = (z 1).val; rw [e1]; omega

theorem read3 (c : Dev nD) (t : Fin cfg0.N) (k : Fin 1024) (j : Fin 1664) :
    (iblk m c 3 t : Vec Ideal S1024x1664 .bf16) (ix2 k j) = ((m ((c : Thread nD τ).loc main_arg4)) : S1024x1664.Idx → EReal) (ix2 k j) := by
  have hV : @Eq (S1024x1664.Idx → EReal) (V m c main_v10)
      (truncf (F := Ideal) (s := S1024x1664) (φ := .f32) .bf16 (m ((c : Thread nD τ).loc main_arg4)) bitsLt_bf16_f32) := by
    dsimp only [Gen.V, Gen.hostOps0]
    after_results
  exact (blk3 m c t (ix2 k j)).trans (congrFun hV (ix2 k j))

/-- Window 4's block is the whole bias row, which the host recast from the flat argument `main_arg5`: lane `j` of the
    row is entry `j` of the argument. -/
theorem blk4 (c : Dev nD) (t : Fin cfg0.N) (z : S1x1664.Idx) :
    (iblk m c 4 t : Vec Ideal S1x1664 .f32) z = (V m c main_v17 : S1x1664.Idx → EReal) z := by
  obtain ⟨e0, e1⟩ := idx4 t
  unfold iblk
  rw [View.read_apply]
  show (V m c main_v17 : S1x1664.Idx → EReal) _ = _
  refine congrArg (V m c main_v17 : S1x1664.Idx → EReal) ?_
  funext a
  apply Fin.ext
  match a with
  | ⟨0, _⟩ => show win0_4.index t (0 : Fin 2) * 1 + 1 * (z 0).val = (z 0).val; rw [e0]; omega
  | ⟨1, _⟩ => show win0_4.index t (1 : Fin 2) * 1664 + 1 * (z 1).val = (z 1).val; rw [e1]; omega

theorem read4 (c : Dev nD) (t : Fin cfg0.N) (j : Fin 1664) :
    (iblk m c 4 t : Vec Ideal S1x1664 .f32) (ix2 (0 : Fin 1) j) = ((m ((c : Thread nD τ).loc main_arg5)) : S1664.Idx → EReal) (ix1 j) := by
  have hV : @Eq (S1x1664.Idx → EReal) (V m c main_v17)
      (shapeCast S1x1664 ((m ((c : Thread nD τ).loc main_arg5)) : S1664.Idx → EReal) shapeCasts_S1664_S1x1664) := by
    dsimp only [Gen.V, Gen.hostOps0]
    after_results
    rfl
  exact ((blk4 m c t (ix2 (0 : Fin 1) j)).trans (congrFun hV (ix2 (0 : Fin 1) j))).trans
    (Cert.RowBias.castRow_apply _ _ j)

/-- Window 5's block is the whole weight array, which the host narrowed from argument `main_arg6`: at the exact
    extended reals narrowing changes nothing. -/
theorem blk5 (c : Dev nD) (t : Fin cfg0.N) (z : S1664x1024.Idx) :
    (iblk m c 5 t : Vec Ideal S1664x1024 .bf16) z = (V m c main_v11 : S1664x1024.Idx → EReal) z := by
  obtain ⟨e0, e1⟩ := idx5 t
  unfold iblk
  rw [View.read_apply]
  show (V m c main_v11 : S1664x1024.Idx → EReal) _ = _
  refine congrArg (V m c main_v11 : S1664x1024.Idx → EReal) ?_
  funext a
  apply Fin.ext
  match a with
  | ⟨0, _⟩ => show win0_5.index t (0 : Fin 2) * 1664 + 1 * (z 0).val = (z 0).val; rw [e0]; omega
  | ⟨1, _⟩ => show win0_5.index t (1 : Fin 2) * 1024 + 1 * (z 1).val = (z 1).val; rw [e1]; omega

theorem read5 (c : Dev nD) (t : Fin cfg0.N) (k : Fin 1664) (j : Fin 1024) :
    (iblk m c 5 t : Vec Ideal S1664x1024 .bf16) (ix2 k j) = ((m ((c : Thread nD τ).loc main_arg6)) : S1664x1024.Idx → EReal) (ix2 k j) := by
  have hV : @Eq (S1664x1024.Idx → EReal) (V m c main_v11)
      (truncf (F := Ideal) (s := S1664x1024) (φ := .f32) .bf16 (m ((c : Thread nD τ).loc main_arg6)) bitsLt_bf16_f32) := by
    dsimp only [Gen.V, Gen.hostOps0]
    after_results
  exact (blk5 m c t (ix2 k j)).trans (congrFun hV (ix2 k j))

/-- Window 6's block is the whole bias row, which the host recast from the flat argument `main_arg7`: lane `j` of the
    row is entry `j` of the argument. -/
theorem blk6 (c : Dev nD) (t : Fin cfg0.N) (z : S1x1024.Idx) :
    (iblk m c 6 t : Vec Ideal S1x1024 .f32) z = (V m c main_v18 : S1x1024.Idx → EReal) z := by
  obtain ⟨e0, e1⟩ := idx6 t
  unfold iblk
  rw [View.read_apply]
  show (V m c main_v18 : S1x1024.Idx → EReal) _ = _
  refine congrArg (V m c main_v18 : S1x1024.Idx → EReal) ?_
  funext a
  apply Fin.ext
  match a with
  | ⟨0, _⟩ => show win0_6.index t (0 : Fin 2) * 1 + 1 * (z 0).val = (z 0).val; rw [e0]; omega
  | ⟨1, _⟩ => show win0_6.index t (1 : Fin 2) * 1024 + 1 * (z 1).val = (z 1).val; rw [e1]; omega

theorem read6 (c : Dev nD) (t : Fin cfg0.N) (j : Fin 1024) :
    (iblk m c 6 t : Vec Ideal S1x1024 .f32) (ix2 (0 : Fin 1) j) = ((m ((c : Thread nD τ).loc main_arg7)) : S1024.Idx → EReal) (ix1 j) := by
  have hV : @Eq (S1x1024.Idx → EReal) (V m c main_v18)
      (shapeCast S1x1024 ((m ((c : Thread nD τ).loc main_arg7)) : S1024.Idx → EReal) shapeCasts_S1024_S1x1024) := by
    dsimp only [Gen.V, Gen.hostOps0]
    after_results
    rfl
  exact ((blk6 m c t (ix2 (0 : Fin 1) j)).trans (congrFun hV (ix2 (0 : Fin 1) j))).trans
    (Cert.RowBias.castRow_apply _ _ j)

/-- Window 7's block is the whole weight array, which the host narrowed from argument `main_arg8`: at the exact
    extended reals narrowing changes nothing. -/
theorem blk7 (c : Dev nD) (t : Fin cfg0.N) (z : S1024x1664.Idx) :
    (iblk m c 7 t : Vec Ideal S1024x1664 .bf16) z = (V m c main_v12 : S1024x1664.Idx → EReal) z := by
  obtain ⟨e0, e1⟩ := idx7 t
  unfold iblk
  rw [View.read_apply]
  show (V m c main_v12 : S1024x1664.Idx → EReal) _ = _
  refine congrArg (V m c main_v12 : S1024x1664.Idx → EReal) ?_
  funext a
  apply Fin.ext
  match a with
  | ⟨0, _⟩ => show win0_7.index t (0 : Fin 2) * 1024 + 1 * (z 0).val = (z 0).val; rw [e0]; omega
  | ⟨1, _⟩ => show win0_7.index t (1 : Fin 2) * 1664 + 1 * (z 1).val = (z 1).val; rw [e1]; omega

theorem read7 (c : Dev nD) (t : Fin cfg0.N) (k : Fin 1024) (j : Fin 1664) :
    (iblk m c 7 t : Vec Ideal S1024x1664 .bf16) (ix2 k j) = ((m ((c : Thread nD τ).loc main_arg8)) : S1024x1664.Idx → EReal) (ix2 k j) := by
  have hV : @Eq (S1024x1664.Idx → EReal) (V m c main_v12)
      (truncf (F := Ideal) (s := S1024x1664) (φ := .f32) .bf16 (m ((c : Thread nD τ).loc main_arg8)) bitsLt_bf16_f32) := by
    dsimp only [Gen.V, Gen.hostOps0]
    after_results
  exact (blk7 m c t (ix2 k j)).trans (congrFun hV (ix2 k j))

/-- Window 8's block is the whole bias row, which the host recast from the flat argument `main_arg9`: lane `j` of the
    row is entry `j` of the argument. -/
theorem blk8 (c : Dev nD) (t : Fin cfg0.N) (z : S1x1664.Idx) :
    (iblk m c 8 t : Vec Ideal S1x1664 .f32) z = (V m c main_v19 : S1x1664.Idx → EReal) z := by
  obtain ⟨e0, e1⟩ := idx8 t
  unfold iblk
  rw [View.read_apply]
  show (V m c main_v19 : S1x1664.Idx → EReal) _ = _
  refine congrArg (V m c main_v19 : S1x1664.Idx → EReal) ?_
  funext a
  apply Fin.ext
  match a with
  | ⟨0, _⟩ => show win0_8.index t (0 : Fin 2) * 1 + 1 * (z 0).val = (z 0).val; rw [e0]; omega
  | ⟨1, _⟩ => show win0_8.index t (1 : Fin 2) * 1664 + 1 * (z 1).val = (z 1).val; rw [e1]; omega

theorem read8 (c : Dev nD) (t : Fin cfg0.N) (j : Fin 1664) :
    (iblk m c 8 t : Vec Ideal S1x1664 .f32) (ix2 (0 : Fin 1) j) = ((m ((c : Thread nD τ).loc main_arg9)) : S1664.Idx → EReal) (ix1 j) := by
  have hV : @Eq (S1x1664.Idx → EReal) (V m c main_v19)
      (shapeCast S1x1664 ((m ((c : Thread nD τ).loc main_arg9)) : S1664.Idx → EReal) shapeCasts_S1664_S1x1664) := by
    dsimp only [Gen.V, Gen.hostOps0]
    after_results
    rfl
  exact ((blk8 m c t (ix2 (0 : Fin 1) j)).trans (congrFun hV (ix2 (0 : Fin 1) j))).trans
    (Cert.RowBias.castRow_apply _ _ j)

/-- Window 9's block is the whole weight array, which the host narrowed from argument `main_arg10`: at the exact
    extended reals narrowing changes nothing. -/
theorem blk9 (c : Dev nD) (t : Fin cfg0.N) (z : S1664x512.Idx) :
    (iblk m c 9 t : Vec Ideal S1664x512 .bf16) z = (V m c main_v13 : S1664x512.Idx → EReal) z := by
  obtain ⟨e0, e1⟩ := idx9 t
  unfold iblk
  rw [View.read_apply]
  show (V m c main_v13 : S1664x512.Idx → EReal) _ = _
  refine congrArg (V m c main_v13 : S1664x512.Idx → EReal) ?_
  funext a
  apply Fin.ext
  match a with
  | ⟨0, _⟩ => show win0_9.index t (0 : Fin 2) * 1664 + 1 * (z 0).val = (z 0).val; rw [e0]; omega
  | ⟨1, _⟩ => show win0_9.index t (1 : Fin 2) * 512 + 1 * (z 1).val = (z 1).val; rw [e1]; omega

theorem read9 (c : Dev nD) (t : Fin cfg0.N) (k : Fin 1664) (j : Fin 512) :
    (iblk m c 9 t : Vec Ideal S1664x512 .bf16) (ix2 k j) = ((m ((c : Thread nD τ).loc main_arg10)) : S1664x512.Idx → EReal) (ix2 k j) := by
  have hV : @Eq (S1664x512.Idx → EReal) (V m c main_v13)
      (truncf (F := Ideal) (s := S1664x512) (φ := .f32) .bf16 (m ((c : Thread nD τ).loc main_arg10)) bitsLt_bf16_f32) := by
    dsimp only [Gen.V, Gen.hostOps0]
    after_results
  exact (blk9 m c t (ix2 k j)).trans (congrFun hV (ix2 k j))

/-- Window 10's block is the whole bias row, which the host recast from the flat argument `main_arg11`: lane `j` of the
    row is entry `j` of the argument. -/
theorem blk10 (c : Dev nD) (t : Fin cfg0.N) (z : S1x512.Idx) :
    (iblk m c 10 t : Vec Ideal S1x512 .f32) z = (V m c main_v20 : S1x512.Idx → EReal) z := by
  obtain ⟨e0, e1⟩ := idx10 t
  unfold iblk
  rw [View.read_apply]
  show (V m c main_v20 : S1x512.Idx → EReal) _ = _
  refine congrArg (V m c main_v20 : S1x512.Idx → EReal) ?_
  funext a
  apply Fin.ext
  match a with
  | ⟨0, _⟩ => show win0_10.index t (0 : Fin 2) * 1 + 1 * (z 0).val = (z 0).val; rw [e0]; omega
  | ⟨1, _⟩ => show win0_10.index t (1 : Fin 2) * 512 + 1 * (z 1).val = (z 1).val; rw [e1]; omega

theorem read10 (c : Dev nD) (t : Fin cfg0.N) (j : Fin 512) :
    (iblk m c 10 t : Vec Ideal S1x512 .f32) (ix2 (0 : Fin 1) j) = ((m ((c : Thread nD τ).loc main_arg11)) : S512.Idx → EReal) (ix1 j) := by
  have hV : @Eq (S1x512.Idx → EReal) (V m c main_v20)
      (shapeCast S1x512 ((m ((c : Thread nD τ).loc main_arg11)) : S512.Idx → EReal) shapeCasts_S512_S1x512) := by
    dsimp only [Gen.V, Gen.hostOps0]
    after_results
    rfl
  exact ((blk10 m c t (ix2 (0 : Fin 1) j)).trans (congrFun hV (ix2 (0 : Fin 1) j))).trans
    (Cert.RowBias.castRow_apply _ _ j)

/-- Window 11's block is the whole weight array, which the host narrowed from argument `main_arg12`: at the exact
    extended reals narrowing changes nothing. -/
theorem blk11 (c : Dev nD) (t : Fin cfg0.N) (z : S512x1664.Idx) :
    (iblk m c 11 t : Vec Ideal S512x1664 .bf16) z = (V m c main_v14 : S512x1664.Idx → EReal) z := by
  obtain ⟨e0, e1⟩ := idx11 t
  unfold iblk
  rw [View.read_apply]
  show (V m c main_v14 : S512x1664.Idx → EReal) _ = _
  refine congrArg (V m c main_v14 : S512x1664.Idx → EReal) ?_
  funext a
  apply Fin.ext
  match a with
  | ⟨0, _⟩ => show win0_11.index t (0 : Fin 2) * 512 + 1 * (z 0).val = (z 0).val; rw [e0]; omega
  | ⟨1, _⟩ => show win0_11.index t (1 : Fin 2) * 1664 + 1 * (z 1).val = (z 1).val; rw [e1]; omega

theorem read11 (c : Dev nD) (t : Fin cfg0.N) (k : Fin 512) (j : Fin 1664) :
    (iblk m c 11 t : Vec Ideal S512x1664 .bf16) (ix2 k j) = ((m ((c : Thread nD τ).loc main_arg12)) : S512x1664.Idx → EReal) (ix2 k j) := by
  have hV : @Eq (S512x1664.Idx → EReal) (V m c main_v14)
      (truncf (F := Ideal) (s := S512x1664) (φ := .f32) .bf16 (m ((c : Thread nD τ).loc main_arg12)) bitsLt_bf16_f32) := by
    dsimp only [Gen.V, Gen.hostOps0]
    after_results
  exact (blk11 m c t (ix2 k j)).trans (congrFun hV (ix2 k j))

/-- Window 12's block is the whole bias row, which the host recast from the flat argument `main_arg13`: lane `j` of the
    row is entry `j` of the argument. -/
theorem blk12 (c : Dev nD) (t : Fin cfg0.N) (z : S1x1664.Idx) :
    (iblk m c 12 t : Vec Ideal S1x1664 .f32) z = (V m c main_v21 : S1x1664.Idx → EReal) z := by
  obtain ⟨e0, e1⟩ := idx12 t
  unfold iblk
  rw [View.read_apply]
  show (V m c main_v21 : S1x1664.Idx → EReal) _ = _
  refine congrArg (V m c main_v21 : S1x1664.Idx → EReal) ?_
  funext a
  apply Fin.ext
  match a with
  | ⟨0, _⟩ => show win0_12.index t (0 : Fin 2) * 1 + 1 * (z 0).val = (z 0).val; rw [e0]; omega
  | ⟨1, _⟩ => show win0_12.index t (1 : Fin 2) * 1664 + 1 * (z 1).val = (z 1).val; rw [e1]; omega

theorem read12 (c : Dev nD) (t : Fin cfg0.N) (j : Fin 1664) :
    (iblk m c 12 t : Vec Ideal S1x1664 .f32) (ix2 (0 : Fin 1) j) = ((m ((c : Thread nD τ).loc main_arg13)) : S1664.Idx → EReal) (ix1 j) := by
  have hV : @Eq (S1x1664.Idx → EReal) (V m c main_v21)
      (shapeCast S1x1664 ((m ((c : Thread nD τ).loc main_arg13)) : S1664.Idx → EReal) shapeCasts_S1664_S1x1664) := by
    dsimp only [Gen.V, Gen.hostOps0]
    after_results
    rfl
  exact ((blk12 m c t (ix2 (0 : Fin 1) j)).trans (congrFun hV (ix2 (0 : Fin 1) j))).trans
    (Cert.RowBias.castRow_apply _ _ j)

/-- Window 13's block is the whole weight array, which the host narrowed from argument `main_arg14`: at the exact
    extended reals narrowing changes nothing. -/
theorem blk13 (c : Dev nD) (t : Fin cfg0.N) (z : S1664x1.Idx) :
    (iblk m c 13 t : Vec Ideal S1664x1 .bf16) z = (V m c main_v15 : S1664x1.Idx → EReal) z := by
  obtain ⟨e0, e1⟩ := idx13 t
  unfold iblk
  rw [View.read_apply]
  show (V m c main_v15 : S1664x1.Idx → EReal) _ = _
  refine congrArg (V m c main_v15 : S1664x1.Idx → EReal) ?_
  funext a
  apply Fin.ext
  match a with
  | ⟨0, _⟩ => show win0_13.index t (0 : Fin 2) * 1664 + 1 * (z 0).val = (z 0).val; rw [e0]; omega
  | ⟨1, _⟩ => show win0_13.index t (1 : Fin 2) * 1 + 1 * (z 1).val = (z 1).val; rw [e1]; omega

theorem read13 (c : Dev nD) (t : Fin cfg0.N) (k : Fin 1664) (j : Fin 1) :
    (iblk m c 13 t : Vec Ideal S1664x1 .bf16) (ix2 k j) = ((m ((c : Thread nD τ).loc main_arg14)) : S1664x1.Idx → EReal) (ix2 k j) := by
  have hV : @Eq (S1664x1.Idx → EReal) (V m c main_v15)
      (truncf (F := Ideal) (s := S1664x1) (φ := .f32) .bf16 (m ((c : Thread nD τ).loc main_arg14)) bitsLt_bf16_f32) := by
    dsimp only [Gen.V, Gen.hostOps0]
    after_results
  exact (blk13 m c t (ix2 k j)).trans (congrFun hV (ix2 k j))

/-- Window 14's block is the whole bias row, which the host recast from the flat argument `main_arg15`: lane `j` of the
    row is entry `j` of the argument. -/
theorem blk14 (c : Dev nD) (t : Fin cfg0.N) (z : S1x1.Idx) :
    (iblk m c 14 t : Vec Ideal S1x1 .f32) z = (V m c main_v22 : S1x1.Idx → EReal) z := by
  obtain ⟨e0, e1⟩ := idx14 t
  unfold iblk
  rw [View.read_apply]
  show (V m c main_v22 : S1x1.Idx → EReal) _ = _
  refine congrArg (V m c main_v22 : S1x1.Idx → EReal) ?_
  funext a
  apply Fin.ext
  match a with
  | ⟨0, _⟩ => show win0_14.index t (0 : Fin 2) * 1 + 1 * (z 0).val = (z 0).val; rw [e0]; omega
  | ⟨1, _⟩ => show win0_14.index t (1 : Fin 2) * 1 + 1 * (z 1).val = (z 1).val; rw [e1]; omega

theorem read14 (c : Dev nD) (t : Fin cfg0.N) (j : Fin 1) :
    (iblk m c 14 t : Vec Ideal S1x1 .f32) (ix2 (0 : Fin 1) j) = ((m ((c : Thread nD τ).loc main_arg15)) : S1.Idx → EReal) (ix1 j) := by
  have hV : @Eq (S1x1.Idx → EReal) (V m c main_v22)
      (shapeCast S1x1 ((m ((c : Thread nD τ).loc main_arg15)) : S1.Idx → EReal) shapeCasts_S1_S1x1) := by
    dsimp only [Gen.V, Gen.hostOps0]
    after_results
    rfl
  exact ((blk14 m c t (ix2 (0 : Fin 1) j)).trans (congrFun hV (ix2 (0 : Fin 1) j))).trans
    (Cert.RowBias.castRow_apply _ _ j)

/-! ## The result array -/

theorem hz : (![0, 0] : Fin 2 → Nat) = fun _ => 0 := funext fun a => by fin_cases a <;> rfl

/-- The network applied to every row of the pooled features, with the argument arrays as weights and biases. -/
def result (c : Dev nD) : S4096x1.Idx → EReal :=
  Net.out (V m c main_v8) (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))

/-- WHAT POINT `t` WRITES BACK is block `t` of `result`. -/
theorem flushed_eq (c : Dev nD) (t : Fin cfg0.N) :
    (dats m 0 c).flushed 15 t = ((cfg0.win 15).blk t).view.read (Elt Ideal) (result m c) := by
  rw [Cert.KernelIdeal.Value.flushed15]
  unfold out0_15
  rw [View.canon_unit_zero hz]
  simp only [View.ld_unit_zero (S := S512x1664) hz,
    View.ld_unit_zero (S := S1664x1024) hz,
    View.ld_unit_zero (S := S1x1024) hz,
    View.ld_unit_zero (S := S1024x1664) hz,
    View.ld_unit_zero (S := S1x1664) hz,
    View.ld_unit_zero (S := S1664x512) hz,
    View.ld_unit_zero (S := S1x512) hz,
    View.ld_unit_zero (S := S1664x1) hz,
    View.ld_unit_zero (S := S1x1) hz]
  obtain ⟨e0, e1⟩ := idx15 t
  funext y
  refine point_eq _ _ _ _ _ _ _ _ _ _ _ _ _ _ _ _ _ _ _ _ _ _ _ _ _ _ _ _ _ _ y (((cfg0.win 15).blk t).view.emb y)
    (fun k => read0 m c t _ _ ?_ rfl)
    (fun k j => read1 m c t k j)
    (fun j => read2 m c t j)
    (fun k j => read3 m c t k j)
    (fun j => read4 m c t j)
    (fun k j => read5 m c t k j)
    (fun j => read6 m c t j)
    (fun k j => read7 m c t k j)
    (fun j => read8 m c t j)
    (fun k j => read9 m c t k j)
    (fun j => read10 m c t j)
    (fun k j => read11 m c t k j)
    (fun j => read12 m c t j)
    (fun k j => read13 m c t k j)
    (fun j => read14 m c t j)
  show win0_15.index t (0 : Fin 2) * 512 + 1 * (y 0).val = t.val * 512 + (y 0).val
  rw [e0]; omega

/-- An index of the result array is in point `t`'s block iff each coordinate is in the block's range on its axis. -/
theorem mem_blk (t : Fin cfg0.N) (i : S4096x1.Idx) :
    i ∈ ((cfg0.win 15).blk t).view.set ↔ ∀ a : Fin 2, win0_15.index t a * S512x1.size a ≤ (i a).val
      ∧ (i a).val < win0_15.index t a * S512x1.size a + S512x1.size a := by
  show i ∈ ((View.whole main_v23).slice (win0_15.rect t)).set ↔ _
  rw [View.set_slice_whole, Rect.mem_set_unit]
  exact Iff.rfl

/-- Every row of the result lies in the block of the point its row number divided by 512 names. -/
theorem cover (i : S4096x1.Idx) :
    ∃ t : Fin cfg0.N, (cfg0.win 15).flush t = true ∧ i ∈ ((cfg0.win 15).blk t).view.set := by
  have hi0 : (i 0).val < 4096 := (i 0).isLt
  have hi1 : (i 1).val < 1 := (i 1).isLt
  have hN : cfg0.N = 8 := N_0
  have ht : (i 0).val / 512 < cfg0.N := by rw [hN]; omega
  obtain ⟨e0, e1⟩ := idx15 ⟨(i 0).val / 512, ht⟩
  refine ⟨⟨(i 0).val / 512, ht⟩, flush0_15 _, ?_⟩
  rw [mem_blk]
  intro a
  match a with
  | ⟨0, _⟩ =>
    show win0_15.index ⟨(i 0).val / 512, ht⟩ (0 : Fin 2) * 512 ≤ (i 0).val
      ∧ (i 0).val < win0_15.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_15.index ⟨(i 0).val / 512, ht⟩ (1 : Fin 2) * 1 ≤ (i 1).val
      ∧ (i 1).val < win0_15.index ⟨(i 0).val / 512, ht⟩ (1 : Fin 2) * 1 + 1
    rw [e1]; omega

/-- THE ARRAY after the run is `result`. -/
theorem final (c : Dev nD) : (dats m 0 c).arrAt 15 cfg0.N = result m c :=
  (dats m 0 c).arrAt_eq_of_cover 15 (result m c) (fun t _ => flushed_eq m c t) cover

/-- The kernel's run: it ends, nothing faults, the result array holds `result` and the arguments are unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩)
    (Cert.KernelIdeal.Value.run_blocks m ρ)

end Cert.KernelValue

end
-- ==== Proof.RefRow.lean ====
/-
  The reference's stages read at an entry.

  The reference works on all 4096 rows at once. Each contraction runs over the lanes of a row, each bias is a flat vector
  laid as a row and then down the rows, the rectifier is a maximum with a splat of the +0.0 word, and the logistic
  function is spelt out as `1 / (1 + exp (-x))` with splats of the +1.0 word. So entry `(r, c)` of every stage depends
  on row `r` of the pooled features only, and the result at `(r, 0)` is the network of that row.

  The pieces of a residual block are read at an entry first, over arbitrary extents, in the host's spelling; the
  reference's stages are then these pieces put together, the pooled features kept as one unopened array.
-/
import proofs.«148122_j87179246174820_1_alg».proof.Proof.Gen.ReferenceIdeal.Read
import proofs.«148122_j87179246174820_1_alg».proof.Proof.Net

noncomputable section

open scoped BigOperators

namespace Cert.RefRow

open Cert.ReferenceIdeal Cert.ReferenceIdeal.Read Idealize.ShloMosaic Idealize.ShloMosaic.ValueIdx Cert.DenseRow Cert.Net

/-! ## The pieces, over arbitrary extents -/

/-- A rank-0 value laid over any shape holds that value everywhere. -/
theorem splat_apply {α : Type} {s : Shape} (h : (⟨0, ![]⟩ : Shape).BroadcastsInDim s ![])
    (y : (⟨0, ![]⟩ : Shape).Idx → α) (i : s.Idx) :
    broadcastInDim s ![] h y i = y (fun a => a.elim0) :=
  broadcastInDim_apply _ h y i (fun a => a.elim0) (fun a => a.elim0)

/-- The hidden half: lane `k` of row `p` is the rectified dense image of row `p`. -/
theorem hidden_apply {B K H : Nat} (x : FVec Ideal (⟨2, ![B, K]⟩ : Shape) .f32)
    (w : FVec Ideal (⟨2, ![K, H]⟩ : Shape) .f32) (b : FVec Ideal (⟨1, ![H]⟩ : Shape) .f32)
    (h1 : (⟨1, ![H]⟩ : Shape).BroadcastsInDim (⟨2, ![1, H]⟩ : Shape) ![1])
    (h2 : (⟨2, ![1, H]⟩ : Shape).BroadcastsInDim (⟨2, ![B, H]⟩ : Shape) ![0, 1])
    (hz : (⟨0, ![]⟩ : Shape).BroadcastsInDim (⟨2, ![B, H]⟩ : Shape) ![]) (p : Fin B) (k : Fin H) :
    maximumf (addf (Host.dotGeneral (F := Ideal) (DotDims.plain B K H) none x w)
        (broadcastInDim (⟨2, ![B, H]⟩ : Shape) ![0, 1] h2 (broadcastInDim (⟨2, ![1, H]⟩ : Shape) ![1] h1 b)))
        (broadcastInDim (⟨2, ![B, H]⟩ : Shape) ![] hz (constant (F := Ideal) (⟨0, ![]⟩ : Shape) .f32 0x00000000#32)) (ix2 p k)
      = relu (denseRow (rowOf x p) (mat w) (vec b)) k := by
  rw [maximumf_apply, hostDensePlain_apply, splat_apply]
  rfl

/-- The output half: lane `c` of row `p` is the dense image of the hidden row `p`, plus the entry added back,
    rectified. -/
theorem outHalf_apply {B H K : Nat} (hd : FVec Ideal (⟨2, ![B, H]⟩ : Shape) .f32)
    (w : FVec Ideal (⟨2, ![H, K]⟩ : Shape) .f32) (b : FVec Ideal (⟨1, ![K]⟩ : Shape) .f32)
    (h1 : (⟨1, ![K]⟩ : Shape).BroadcastsInDim (⟨2, ![1, K]⟩ : Shape) ![1])
    (h2 : (⟨2, ![1, K]⟩ : Shape).BroadcastsInDim (⟨2, ![B, K]⟩ : Shape) ![0, 1])
    (hz : (⟨0, ![]⟩ : Shape).BroadcastsInDim (⟨2, ![B, K]⟩ : Shape) ![])
    (x : FVec Ideal (⟨2, ![B, K]⟩ : Shape) .f32) (p : Fin B) (c : Fin K) :
    maximumf (addf (addf (Host.dotGeneral (F := Ideal) (DotDims.plain B H K) none hd w)
        (broadcastInDim (⟨2, ![B, K]⟩ : Shape) ![0, 1] h2 (broadcastInDim (⟨2, ![1, K]⟩ : Shape) ![1] h1 b))) x)
        (broadcastInDim (⟨2, ![B, K]⟩ : Shape) ![] hz (constant (F := Ideal) (⟨0, ![]⟩ : Shape) .f32 0x00000000#32)) (ix2 p c)
      = max (denseRow (rowOf hd p) (mat w) (vec b) c + x (ix2 p c)) (Ideal.ofBits .f32 0x00000000#32) := by
  rw [maximumf_apply, addf_apply (addf _ _) x, hostDensePlain_apply, splat_apply]
  rfl

/-- A whole residual block in the host's spelling, read at an entry. -/
theorem block_apply {B K H : Nat} (x : FVec Ideal (⟨2, ![B, K]⟩ : Shape) .f32)
    (w1 : FVec Ideal (⟨2, ![K, H]⟩ : Shape) .f32) (b1 : FVec Ideal (⟨1, ![H]⟩ : Shape) .f32)
    (w2 : FVec Ideal (⟨2, ![H, K]⟩ : Shape) .f32) (b2 : FVec Ideal (⟨1, ![K]⟩ : Shape) .f32)
    (g1 : (⟨1, ![H]⟩ : Shape).BroadcastsInDim (⟨2, ![1, H]⟩ : Shape) ![1])
    (g2 : (⟨2, ![1, H]⟩ : Shape).BroadcastsInDim (⟨2, ![B, H]⟩ : Shape) ![0, 1])
    (gz : (⟨0, ![]⟩ : Shape).BroadcastsInDim (⟨2, ![B, H]⟩ : Shape) ![])
    (h1 : (⟨1, ![K]⟩ : Shape).BroadcastsInDim (⟨2, ![1, K]⟩ : Shape) ![1])
    (h2 : (⟨2, ![1, K]⟩ : Shape).BroadcastsInDim (⟨2, ![B, K]⟩ : Shape) ![0, 1])
    (hz : (⟨0, ![]⟩ : Shape).BroadcastsInDim (⟨2, ![B, K]⟩ : Shape) ![]) (p : Fin B) (c : Fin K) :
    maximumf (addf (addf (Host.dotGeneral (F := Ideal) (DotDims.plain B H K) none
        (maximumf (addf (Host.dotGeneral (F := Ideal) (DotDims.plain B K H) none x w1)
          (broadcastInDim (⟨2, ![B, H]⟩ : Shape) ![0, 1] g2 (broadcastInDim (⟨2, ![1, H]⟩ : Shape) ![1] g1 b1)))
          (broadcastInDim (⟨2, ![B, H]⟩ : Shape) ![] gz (constant (F := Ideal) (⟨0, ![]⟩ : Shape) .f32 0x00000000#32))) w2)
        (broadcastInDim (⟨2, ![B, K]⟩ : Shape) ![0, 1] h2 (broadcastInDim (⟨2, ![1, K]⟩ : Shape) ![1] h1 b2))) x)
        (broadcastInDim (⟨2, ![B, K]⟩ : Shape) ![] hz (constant (F := Ideal) (⟨0, ![]⟩ : Shape) .f32 0x00000000#32)) (ix2 p c)
      = block (rowOf x p) (mat w1) (vec b1) (mat w2) (vec b2) c := by
  refine (outHalf_apply _ w2 b2 h1 h2 hz x p c).trans ?_
  exact congrArg (fun f => max (denseRow f (mat w2) (vec b2) c + x (ix2 p c)) (Ideal.ofBits .f32 0x00000000#32))
    (funext fun k => hidden_apply x w1 b1 g1 g2 gz p k)

/-- The head: the last dense layer's lane of row `p` through the logistic function spelt out with splats of the +1.0
    word. -/
theorem head_apply {B K N : Nat} (x : FVec Ideal (⟨2, ![B, K]⟩ : Shape) .f32)
    (w : FVec Ideal (⟨2, ![K, N]⟩ : Shape) .f32) (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1])
    (hz hz' : (⟨0, ![]⟩ : Shape).BroadcastsInDim (⟨2, ![B, N]⟩ : Shape) ![]) (p : Fin B) (q : Fin N) :
    Host.divf (F := Ideal) (broadcastInDim (⟨2, ![B, N]⟩ : Shape) ![] hz' (constant (F := Ideal) (⟨0, ![]⟩ : Shape) .f32 0x3F800000#32))
        (addf (broadcastInDim (⟨2, ![B, N]⟩ : Shape) ![] hz (constant (F := Ideal) (⟨0, ![]⟩ : Shape) .f32 0x3F800000#32))
          (Host.exp (F := Ideal) (Host.negf (F := Ideal) (addf (Host.dotGeneral (F := Ideal) (DotDims.plain B K N) none x w)
            (broadcastInDim (⟨2, ![B, N]⟩ : Shape) ![0, 1] h2 (broadcastInDim (⟨2, ![1, N]⟩ : Shape) ![1] h1 b)))))) (ix2 p q)
      = Ideal.logistic (denseRow (rowOf x p) (mat w) (vec b) q) := by
  show Ideal.div (broadcastInDim (⟨2, ![B, N]⟩ : Shape) ![] hz' (constant (F := Ideal) (⟨0, ![]⟩ : Shape) .f32 0x3F800000#32) (ix2 p q))
      (broadcastInDim (⟨2, ![B, N]⟩ : Shape) ![] hz (constant (F := Ideal) (⟨0, ![]⟩ : Shape) .f32 0x3F800000#32) (ix2 p q)
        + Ideal.exp (-(addf (Host.dotGeneral (F := Ideal) (DotDims.plain B K N) none x w)
            (broadcastInDim (⟨2, ![B, N]⟩ : Shape) ![0, 1] h2 (broadcastInDim (⟨2, ![1, N]⟩ : Shape) ![1] h1 b)) (ix2 p q)))) = _
  rw [hostDensePlain_apply]
  exact logistic_expanded _

/-! ## The reference's stages

  The printed contractions are the plain products of their extents. -/

theorem dotA : dot_S4096x1664_S1664x1024_S4096x1024_1_0_0_1_n_n = DotDims.plain 4096 1664 1024 := rfl
theorem dotB : dot_S4096x1024_S1024x1664_S4096x1664_1_0_0_1_n_n = DotDims.plain 4096 1024 1664 := rfl
theorem dotC : dot_S4096x1664_S1664x512_S4096x512_1_0_0_1_n_n = DotDims.plain 4096 1664 512 := rfl
theorem dotD : dot_S4096x512_S512x1664_S4096x1664_1_0_0_1_n_n = DotDims.plain 4096 512 1664 := rfl
theorem dotE : dot_S4096x1664_S1664x1_S4096x1_1_0_0_1_n_n = DotDims.plain 4096 1664 1 := rfl

/-- After the first block: row `r` is the first residual block of row `r` of the pooled features. -/
theorem stage1 (x0 : (⟨S4096x26x8, .i32⟩ : BufTy).Contents (Elt Ideal)) (x1 : (⟨S1000000x64, .f32⟩ : BufTy).Contents (Elt Ideal)) (x2 : (⟨S1664x1024, .f32⟩ : BufTy).Contents (Elt Ideal)) (x3 : (⟨S1024, .f32⟩ : BufTy).Contents (Elt Ideal)) (x4 : (⟨S1024x1664, .f32⟩ : BufTy).Contents (Elt Ideal)) (x5 : (⟨S1664, .f32⟩ : BufTy).Contents (Elt Ideal)) (r : Fin 4096) (c : Fin 1664) :
    val_main_v19 (F := Ideal) x0 x1 x2 x3 x4 x5 (ix2 r c)
      = block (rowOf (val_main_v8 (F := Ideal) x0 x1) r) (mat x2) (vec x3) (mat x4) (vec x5) c := by
  unfold val_main_v19 val_main_v18 val_main_v17 val_main_v16 val_main_v15 val_main_v14 val_main_v13 val_main_v12
    val_main_v11 val_main_v10 val_main_v9 val_main_call0_v0 val_main_call0_cst val_main_call1_v0 val_main_call1_cst
  rw [dotA, dotB]
  exact block_apply (val_main_v8 (F := Ideal) x0 x1) x2 x3 x4 x5 _ _ _ _ _ _ r c

/-- After the second block. -/
theorem stage2 (x0 : (⟨S4096x26x8, .i32⟩ : BufTy).Contents (Elt Ideal)) (x1 : (⟨S1000000x64, .f32⟩ : BufTy).Contents (Elt Ideal)) (x2 : (⟨S1664x1024, .f32⟩ : BufTy).Contents (Elt Ideal)) (x3 : (⟨S1024, .f32⟩ : BufTy).Contents (Elt Ideal)) (x4 : (⟨S1024x1664, .f32⟩ : BufTy).Contents (Elt Ideal)) (x5 : (⟨S1664, .f32⟩ : BufTy).Contents (Elt Ideal)) (x6 : (⟨S1664x1024, .f32⟩ : BufTy).Contents (Elt Ideal)) (x7 : (⟨S1024, .f32⟩ : BufTy).Contents (Elt Ideal)) (x8 : (⟨S1024x1664, .f32⟩ : BufTy).Contents (Elt Ideal)) (x9 : (⟨S1664, .f32⟩ : BufTy).Contents (Elt Ideal)) (r : Fin 4096) (c : Fin 1664) :
    val_main_v30 (F := Ideal) x0 x1 x2 x3 x4 x5 x6 x7 x8 x9 (ix2 r c)
      = block (rowOf (val_main_v19 (F := Ideal) x0 x1 x2 x3 x4 x5) r) (mat x6) (vec x7) (mat x8) (vec x9) c := by
  unfold val_main_v30 val_main_v29 val_main_v28 val_main_v27 val_main_v26 val_main_v25 val_main_v24 val_main_v23
    val_main_v22 val_main_v21 val_main_v20 val_main_call2_v0 val_main_call2_cst val_main_call3_v0 val_main_call3_cst
  rw [dotA, dotB]
  exact block_apply (val_main_v19 (F := Ideal) x0 x1 x2 x3 x4 x5) x6 x7 x8 x9 _ _ _ _ _ _ r c

/-- After the third block. -/
theorem stage3 (x0 : (⟨S4096x26x8, .i32⟩ : BufTy).Contents (Elt Ideal)) (x1 : (⟨S1000000x64, .f32⟩ : BufTy).Contents (Elt Ideal)) (x2 : (⟨S1664x1024, .f32⟩ : BufTy).Contents (Elt Ideal)) (x3 : (⟨S1024, .f32⟩ : BufTy).Contents (Elt Ideal)) (x4 : (⟨S1024x1664, .f32⟩ : BufTy).Contents (Elt Ideal)) (x5 : (⟨S1664, .f32⟩ : BufTy).Contents (Elt Ideal)) (x6 : (⟨S1664x1024, .f32⟩ : BufTy).Contents (Elt Ideal)) (x7 : (⟨S1024, .f32⟩ : BufTy).Contents (Elt Ideal)) (x8 : (⟨S1024x1664, .f32⟩ : BufTy).Contents (Elt Ideal)) (x9 : (⟨S1664, .f32⟩ : BufTy).Contents (Elt Ideal)) (x10 : (⟨S1664x512, .f32⟩ : BufTy).Contents (Elt Ideal)) (x11 : (⟨S512, .f32⟩ : BufTy).Contents (Elt Ideal)) (x12 : (⟨S512x1664, .f32⟩ : BufTy).Contents (Elt Ideal)) (x13 : (⟨S1664, .f32⟩ : BufTy).Contents (Elt Ideal)) (r : Fin 4096) (c : Fin 1664) :
    val_main_v41 (F := Ideal) x0 x1 x2 x3 x4 x5 x6 x7 x8 x9 x10 x11 x12 x13 (ix2 r c)
      = block (rowOf (val_main_v30 (F := Ideal) x0 x1 x2 x3 x4 x5 x6 x7 x8 x9) r) (mat x10) (vec x11) (mat x12) (vec x13) c := by
  unfold val_main_v41 val_main_v40 val_main_v39 val_main_v38 val_main_v37 val_main_v36 val_main_v35 val_main_v34
    val_main_v33 val_main_v32 val_main_v31 val_main_call4_v0 val_main_call4_cst val_main_call5_v0 val_main_call5_cst
  rw [dotC, dotD]
  exact block_apply (val_main_v30 (F := Ideal) x0 x1 x2 x3 x4 x5 x6 x7 x8 x9) x10 x11 x12 x13 _ _ _ _ _ _ r c

/-- The result from the third block's output. -/
theorem stage4 (x0 : (⟨S4096x26x8, .i32⟩ : BufTy).Contents (Elt Ideal)) (x1 : (⟨S1000000x64, .f32⟩ : BufTy).Contents (Elt Ideal)) (x2 : (⟨S1664x1024, .f32⟩ : BufTy).Contents (Elt Ideal)) (x3 : (⟨S1024, .f32⟩ : BufTy).Contents (Elt Ideal)) (x4 : (⟨S1024x1664, .f32⟩ : BufTy).Contents (Elt Ideal)) (x5 : (⟨S1664, .f32⟩ : BufTy).Contents (Elt Ideal)) (x6 : (⟨S1664x1024, .f32⟩ : BufTy).Contents (Elt Ideal)) (x7 : (⟨S1024, .f32⟩ : BufTy).Contents (Elt Ideal)) (x8 : (⟨S1024x1664, .f32⟩ : BufTy).Contents (Elt Ideal)) (x9 : (⟨S1664, .f32⟩ : BufTy).Contents (Elt Ideal)) (x10 : (⟨S1664x512, .f32⟩ : BufTy).Contents (Elt Ideal)) (x11 : (⟨S512, .f32⟩ : BufTy).Contents (Elt Ideal)) (x12 : (⟨S512x1664, .f32⟩ : BufTy).Contents (Elt Ideal)) (x13 : (⟨S1664, .f32⟩ : BufTy).Contents (Elt Ideal)) (x14 : (⟨S1664x1, .f32⟩ : BufTy).Contents (Elt Ideal)) (x15 : (⟨S1, .f32⟩ : BufTy).Contents (Elt Ideal)) (r : Fin 4096) (q : Fin 1) :
    val_main_v51 (F := Ideal) x0 x1 x2 x3 x4 x5 x6 x7 x8 x9 x10 x11 x12 x13 x14 x15 (ix2 r q)
      = Ideal.logistic (denseRow (rowOf (val_main_v41 (F := Ideal) x0 x1 x2 x3 x4 x5 x6 x7 x8 x9 x10 x11 x12 x13) r) (mat x14) (vec x15) q) := by
  unfold val_main_v51 val_main_v50 val_main_v49 val_main_v48 val_main_v47 val_main_v46 val_main_v45 val_main_v44
    val_main_v43 val_main_v42 val_main_cst_1 val_main_cst_2
  rw [dotE]
  exact head_apply (val_main_v41 (F := Ideal) x0 x1 x2 x3 x4 x5 x6 x7 x8 x9 x10 x11 x12 x13) x14 x15 _ _ _ _ r q

/-- THE REFERENCE AT A ROW: the result at `(r, 0)` is the network of row `r` of the pooled features. -/
theorem result_apply (x0 : (⟨S4096x26x8, .i32⟩ : BufTy).Contents (Elt Ideal)) (x1 : (⟨S1000000x64, .f32⟩ : BufTy).Contents (Elt Ideal)) (x2 : (⟨S1664x1024, .f32⟩ : BufTy).Contents (Elt Ideal)) (x3 : (⟨S1024, .f32⟩ : BufTy).Contents (Elt Ideal)) (x4 : (⟨S1024x1664, .f32⟩ : BufTy).Contents (Elt Ideal)) (x5 : (⟨S1664, .f32⟩ : BufTy).Contents (Elt Ideal)) (x6 : (⟨S1664x1024, .f32⟩ : BufTy).Contents (Elt Ideal)) (x7 : (⟨S1024, .f32⟩ : BufTy).Contents (Elt Ideal)) (x8 : (⟨S1024x1664, .f32⟩ : BufTy).Contents (Elt Ideal)) (x9 : (⟨S1664, .f32⟩ : BufTy).Contents (Elt Ideal)) (x10 : (⟨S1664x512, .f32⟩ : BufTy).Contents (Elt Ideal)) (x11 : (⟨S512, .f32⟩ : BufTy).Contents (Elt Ideal)) (x12 : (⟨S512x1664, .f32⟩ : BufTy).Contents (Elt Ideal)) (x13 : (⟨S1664, .f32⟩ : BufTy).Contents (Elt Ideal)) (x14 : (⟨S1664x1, .f32⟩ : BufTy).Contents (Elt Ideal)) (x15 : (⟨S1, .f32⟩ : BufTy).Contents (Elt Ideal)) (r : Fin 4096) :
    val_main_v51 (F := Ideal) x0 x1 x2 x3 x4 x5 x6 x7 x8 x9 x10 x11 x12 x13 x14 x15 (ix2 r (0 : Fin 1))
      = net (rowOf (val_main_v8 (F := Ideal) x0 x1) r) (mat x2) (vec x3) (mat x4) (vec x5) (mat x6) (vec x7) (mat x8) (vec x9)
          (mat x10) (vec x11) (mat x12) (vec x13) (mat x14) (vec x15) := by
  rw [stage4]
  have e3 : rowOf (val_main_v41 (F := Ideal) x0 x1 x2 x3 x4 x5 x6 x7 x8 x9 x10 x11 x12 x13) r
      = block (rowOf (val_main_v30 (F := Ideal) x0 x1 x2 x3 x4 x5 x6 x7 x8 x9) r) (mat x10) (vec x11) (mat x12) (vec x13) :=
    funext fun c => stage3 x0 x1 x2 x3 x4 x5 x6 x7 x8 x9 x10 x11 x12 x13 r c
  have e2 : rowOf (val_main_v30 (F := Ideal) x0 x1 x2 x3 x4 x5 x6 x7 x8 x9) r
      = block (rowOf (val_main_v19 (F := Ideal) x0 x1 x2 x3 x4 x5) r) (mat x6) (vec x7) (mat x8) (vec x9) :=
    funext fun c => stage2 x0 x1 x2 x3 x4 x5 x6 x7 x8 x9 r c
  have e1 : rowOf (val_main_v19 (F := Ideal) x0 x1 x2 x3 x4 x5) r
      = block (rowOf (val_main_v8 (F := Ideal) x0 x1) r) (mat x2) (vec x3) (mat x4) (vec x5) :=
    funext fun c => stage1 x0 x1 x2 x3 x4 x5 r c
  rw [e3, e2, e1]
  rfl

end Cert.RefRow

end
-- ==== Proof.Pooled.lean ====
/-
  The pooled features are one function of the arguments in both programs.

  Both programs begin with the same host operations: a negative id is wrapped by adding the table's row count, the table's
  rows are gathered at the ids, the eight rows of each bag are summed, and the sums are laid out as one row of 1664
  features per batch entry. What the kernel's region finds in that buffer is therefore the reference's stage of the same
  name, applied to the same two argument arrays. The chain is compared as a whole and never opened: nothing is asked of the
  ids, of the gathered rows or of the order of the sum.
-/
import proofs.«148122_j87179246174820_1_alg».proof.Proof.Gen.KernelIdeal.Frame
import proofs.«148122_j87179246174820_1_alg».proof.Proof.Gen.ReferenceIdeal.Read
import Idealize.ShloMosaic.Lib.StableHlo.Run

noncomputable section

namespace Cert.Pooled

open Cert.KernelIdeal Cert.KernelIdeal.Gen Idealize.ShloMosaic Idealize.ShloMosaic.TcCoe Idealize.SL.Sem

/-- The pooled features the kernel's region finds are the reference's pooled features of the same arguments. -/
theorem pooled_eq (m : (ℓ : Loc nD τ sig) → Buf (Elt Ideal) ℓ) (c : Dev nD) :
    (V m c main_v8 : S4096x1664.Idx → EReal)
      = Cert.ReferenceIdeal.Read.val_main_v8 (F := Ideal) (m ((c : Thread nD τ).loc main_arg0))
          (m ((c : Thread nD τ).loc main_arg1)) := by
  dsimp only [Gen.V, Gen.hostOps0]
  after_results
  rfl

end Cert.Pooled

end
-- ==== Proof.lean ====
/-
  A residual network on pooled embeddings: the kernel against its reference, at the exact extended reals.

  Both programs gather embedding rows, sum each bag of eight and lay the sums out as one row of 1664 features per batch
  entry; then three residual blocks `x ↦ relu (dense₂ (relu (dense₁ x)) + x)`, a dense layer to one lane and the
  logistic function. The kernel runs the network 512 rows at a time over a grid of eight points, with the weights
  narrowed to a shorter float format and the biases kept as single rows; the reference runs it on all 4096 rows at once
  and spells the logistic function as `1 / (1 + exp (-x))`.

  At the exact extended reals narrowing a float changes nothing, a matrix-unit product into a zero accumulator and a
  host contraction are the same sum over the contracted lane, and the logistic function is that quotient. Every dense
  layer contracts over the lanes of a row and everything else acts lane by lane, so entry `(r, 0)` of either result is
  one function, `Net.net`, of row `r` of the pooled features. Hence both programs end with the same array, `Net.out`
  of the pooled features and the weights. No law that needs finite operands is used: the two sides are the same
  expression, sum for sum and factor for factor, so the precondition is never opened.

  * `Proof/Net.lean`: the network on a row, and the result array as a function of the pooled features.
  * `Proof/LibDenseRow.lean` (over `LibPlainMatmul`, `LibHostRowOps`, `LibRowBias`): a dense layer on a row, in the
    kernel's spelling and in the host's, read at an entry.
  * `Proof/KernelRow.lean`: the kernel body's stored value at `(p, 0)` is the network of row `p` of its block.
  * `Proof/KernelValue.lean`: the eight blocks written back tile the result array, which ends as `Net.out`.
  * `Proof/RefRow.lean`: the reference's result at `(r, 0)` is the network of row `r`.
  * `Proof/Pooled.lean`: the pooled features are the same function of the arguments in both programs.
  The three frames are the generated ones (the reference's is its generated run with the result dropped), and the
  idealization rewrote no operation, so there is nothing to preserve.
-/
import proofs.«148122_j87179246174820_1_alg».proof.Defs
import proofs.«148122_j87179246174820_1_alg».proof.Proof.Gen.Kernel
import proofs.«148122_j87179246174820_1_alg».proof.Proof.Gen.Kernel.Skeleton
import proofs.«148122_j87179246174820_1_alg».proof.Proof.Gen.Kernel.Launch
import proofs.«148122_j87179246174820_1_alg».proof.Proof.Gen.Kernel.Points
import proofs.«148122_j87179246174820_1_alg».proof.Proof.Gen.Kernel.Frame
import proofs.«148122_j87179246174820_1_alg».proof.Proof.Gen.KernelIdeal
import proofs.«148122_j87179246174820_1_alg».proof.Proof.Gen.KernelIdeal.Skeleton
import proofs.«148122_j87179246174820_1_alg».proof.Proof.Gen.KernelIdeal.Launch
import proofs.«148122_j87179246174820_1_alg».proof.Proof.Gen.KernelIdeal.Points
import proofs.«148122_j87179246174820_1_alg».proof.Proof.Gen.KernelIdeal.Frame
import proofs.«148122_j87179246174820_1_alg».proof.Proof.Gen.ReferenceIdeal
import proofs.«148122_j87179246174820_1_alg».proof.Proof.Gen.Pre_finite_inputs
import proofs.«148122_j87179246174820_1_alg».proof.Proof.Gen.KernelIdeal.Value
import proofs.«148122_j87179246174820_1_alg».proof.Proof.Gen.ReferenceIdeal.Run
import proofs.«148122_j87179246174820_1_alg».proof.Proof.Gen.ReferenceIdeal.Read
import proofs.«148122_j87179246174820_1_alg».proof.Proof.KernelValue
import proofs.«148122_j87179246174820_1_alg».proof.Proof.RefRow
import proofs.«148122_j87179246174820_1_alg».proof.Proof.Pooled
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The reference's result, of the kernel's argument arrays, is the kernel's result array: at every row both are the
    network of that row of the pooled features, and the pooled features are one function of the arguments. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v51 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
        (m ((c : Thread Cert.KernelIdeal.nD Cert.KernelIdeal.τ).loc Cert.KernelIdeal.main_arg7))
        (m ((c : Thread Cert.KernelIdeal.nD Cert.KernelIdeal.τ).loc Cert.KernelIdeal.main_arg8))
        (m ((c : Thread Cert.KernelIdeal.nD Cert.KernelIdeal.τ).loc Cert.KernelIdeal.main_arg9))
        (m ((c : Thread Cert.KernelIdeal.nD Cert.KernelIdeal.τ).loc Cert.KernelIdeal.main_arg10))
        (m ((c : Thread Cert.KernelIdeal.nD Cert.KernelIdeal.τ).loc Cert.KernelIdeal.main_arg11))
        (m ((c : Thread Cert.KernelIdeal.nD Cert.KernelIdeal.τ).loc Cert.KernelIdeal.main_arg12))
        (m ((c : Thread Cert.KernelIdeal.nD Cert.KernelIdeal.τ).loc Cert.KernelIdeal.main_arg13))
        (m ((c : Thread Cert.KernelIdeal.nD Cert.KernelIdeal.τ).loc Cert.KernelIdeal.main_arg14))
        (m ((c : Thread Cert.KernelIdeal.nD Cert.KernelIdeal.τ).loc Cert.KernelIdeal.main_arg15))
      = Cert.KernelValue.result m c := by
  funext j
  obtain ⟨r, q, rfl⟩ : ∃ (r : Fin 4096) (q : Fin 1), j = ix2 r q := ⟨j 0, j 1, eq_ix2 j⟩
  obtain rfl : q = 0 := Subsingleton.elim _ _
  rw [Cert.RefRow.result_apply]
  unfold Cert.KernelValue.result
  rw [Cert.Pooled.pooled_eq]
  rfl

/-- From memories that agree on the arguments both programs run, and end with the same result array. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12, g13, g14, g15⟩ := hagree c
  rw [Cert.ReferenceIdeal.Read.val_main_v51_eq, g0, g1, g2, g3, g4, g5, g6, g7, g8, g9, g10, g11, g12, g13, g14, g15]
  exact result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
